-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192x8192 32) (main_arg2 : IVec S8192x8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S512x128 : Shape := ⟨2, ![512, 128]⟩
abbrev S512x512 : Shape := ⟨2, ![512, 512]⟩
abbrev S512x1 : Shape := ⟨2, ![512, 1]⟩
abbrev S512 : Shape := ⟨1, ![512]⟩

abbrev nBuf : Space → Nat
  | .hbm => 26
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S8192x8192, .i32⟩
  | .hbm, ⟨2, _⟩ => ⟨S8192x8192, .i32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S8192x128, .bf16⟩
  | .hbm, ⟨14, _⟩ => ⟨S8192x1, .f32⟩
  | .hbm, ⟨15, _⟩ => ⟨S8192x1, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x512, .i32⟩
  | .local _ .vmem, ⟨5, _⟩ => ⟨S512x512, .i32⟩
  | .local _ .vmem, ⟨6, _⟩ => ⟨S512x512, .i32⟩
  | .local _ .vmem, ⟨7, _⟩ => ⟨S512x512, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v42 : BitVec 1 := Scalar.cmpi .eq arg1 c15_i32
  let v43 : BitVec 32 := Scalar.extui v42
  let c0_i32_22 : BitVec 32 := 0#32
  let v44 : BitVec 1 := Scalar.cmpi .ne v43 c0_i32_22
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  iota_S512x512_d0_w32 : S512x512.Iotas .tc 32 [0]
  iota_S512x512_d1_w32 : S512x512.Iotas .tc 32 [1]
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  shapeCasts_S8192x1_S8192 : S8192x1.ShapeCasts S8192
  reducesTo_S8192_S_d0 : S8192.ReducesTo [0] S_
  dot_S512x128_S512x128_S512x512_1_1_0_0_n_n_wf : DotDims.WF S512x128 S512x128 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .bf16 = 32 ∨ (Rect.block (s := S8192x128) S512x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .bf16 = 32 ∨ (Rect.block (s := S8192x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x8192.size a
  hwx0_2 : ∀ i : grid0.Coords, EltTy.bits .i32 = 32 ∨ (Rect.block (s := S8192x8192) S512x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S8192x8192.size a
  hwx0_3 : ∀ i : grid0.Coords, EltTy.bits .i32 = 32 ∨ (Rect.block (s := S8192x8192) S512x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)

variable [Facts₀]

def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf

abbrev win0_0 : Pipeline.Window sig grid0 :=
  Pipeline.Window.ofSpec (Memref.whole main_v5) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 46
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .i32⟩
  | .hbm, ⟨2, _⟩ => ⟨S8192x8192, .i32⟩
  | .hbm, ⟨3, _⟩ => ⟨S8192x8192, .i32⟩
  | .hbm, ⟨4, _⟩ => ⟨S8192x8192, .i32⟩
  | .hbm, ⟨5, _⟩ => ⟨S_, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x128, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x128, .f32⟩
  | .hbm, ⟨26, _⟩ => ⟨S8192x128, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  reducesTo_S8192x8192_S8192_d1 : S8192x8192.ReducesTo [1] S8192
  reducesTo_S8192_S_d0 : S8192.ReducesTo [0] S_
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.KData.lean ====
/-
  The proof data of the one kernel region: what each window's staging buffer and the two scratch accumulators hold
  after the body at each grid point.

  The grid is 16 × 16, point `t` at row block `t / 16` and column block `t % 16`. The four input windows hold, at every
  point, their block of the array they stage (rows of the row block and rows of the column block of the normalised
  features, and the two mask tiles). The two scratch accumulators are reset at the first column block of each row
  block and then grow by the tile's masked row sums; the two output windows receive the accumulators at the last
  column block, and are left untouched elsewhere.
-/
import proofs.«127468_j49890340110909_1_alg».proof.Proof.Gen.KernelIdeal.Launch
import proofs.«127468_j49890340110909_1_alg».proof.Proof.Gen.KernelIdeal.Skeleton
import proofs.«127468_j49890340110909_1_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main before the region -/

/-- Core `c`'s buffers at launch, as a valuation. -/
abbrev V₀ (c : Dev nD) : Valuation τ sig (Elt F) := fun b => m (c, b)
/-- After the host operations before the region: the norm of each row, its floor, the quotient, the format change. -/
abbrev Ve (c : Dev nD) : Valuation τ sig (Elt F) := StableHlo.after hostOps0_1 (StableHlo.after hostOps0 (V₀ m c))
/-- The same read at a TensorCore reference. -/
abbrev V (c : Dev nD) (b : Ref sig .tc) : Buf (Elt F) ((c : Thread nD τ).loc b) := Ve m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- One point's step of the two accumulators: from what they held, what the body stores back. -/
def accStep (c : Dev nD) (t : Fin cfg0.N) (prev : Vec F S512x1 .f32 × Vec F S512x1 .f32) : Vec F S512x1 .f32 × Vec F S512x1 .f32 :=
  (k0_pay7 (grid0.coords t) (iblk m c 0 t) (iblk m c 1 t) (iblk m c 2 t) prev.1,
   k0_pay1 (k0_pay4 (iblk m c 0 t) (iblk m c 1 t)) (k0_pay6 (grid0.coords t) (iblk m c 3 t)) prev.2)

/-- What the two accumulators hold after the body at position `n`: reset to zero at the first column block of a row
    block, carried from the point before otherwise, then stepped. -/
def accs (c : Dev nD) : (n : ℕ) → n < cfg0.N → Vec F S512x1 .f32 × Vec F S512x1 .f32
  | 0, hn => accStep m c ⟨0, hn⟩ (k0_pay2, k0_pay3)
  | n + 1, hn => accStep m c ⟨n + 1, hn⟩ (if (n + 1) % 16 = 0 then (k0_pay2, k0_pay3) else accs c n (Nat.lt_of_succ_lt hn))

/-! ## The staging memrefs and the scratch -/

/-- Each window's current staging memref at point `t`, as the pipeline passes it to the body, and its wholeness. -/
abbrev ms0 (t : Fin cfg0.N) : Memref sig .tc .vmem S512x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1 .f32 := win0_5.stage (cfg0.slots t 5)
abbrev hs5 (t : Fin cfg0.N) : (ms5 t).IsWhole := hstage0_5 ((cfg0.slots t 5).cast nbuf0_5)
/-- The two accumulators: whole scoped buffers of the kernel's own. -/
abbrev sc0 : Memref sig .tc .vmem S512x1 .f32 := Memref.whole cc0_scratch0
abbrev sc1 : Memref sig .tc .vmem S512x1 .f32 := Memref.whole cc0_scratch1

/-! ## The body's two conditions, in closed form over the grid -/

/-- "This is the first column block": the accumulators are reset. -/
abbrev condFirst (i : grid0.Coords) : Prop :=
  (Scalar.cmpi .ne (Scalar.extui (Scalar.cmpi .eq (BitVec.ofNat 32 (i 1).val) 0#32)) 0#32) = 1#1
theorem hcondFirst : ∀ t : Fin cfg0.N, condFirst (grid0.coords t) ↔ t.val % 16 = 0 :=
  (by decide +kernel : ∀ t : Fin grid0.N, condFirst (grid0.coords t) ↔ t.val % 16 = 0)

/-- "This is the last column block": the accumulators are copied out. -/
abbrev condLast (i : grid0.Coords) : Prop := k0_cond2 i = 1#1
theorem hcondLast : ∀ t : Fin cfg0.N, condLast (grid0.coords t) ↔ t.val % 16 = 15 :=
  (by decide +kernel : ∀ t : Fin grid0.N, condLast (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last column block the outputs are idle and not written back; at it they are live. -/
theorem idle4 : ∀ t : Fin cfg0.N, ¬condLast (grid0.coords t) → cfg0.idle 4 (grid0.coords t) = true := by decide +kernel
theorem idle5 : ∀ t : Fin cfg0.N, ¬condLast (grid0.coords t) → cfg0.idle 5 (grid0.coords t) = true := by decide +kernel
theorem noFlush4 : ∀ t : Fin cfg0.N, ¬condLast (grid0.coords t) → (cfg0.win 4).flush t = false := by decide +kernel
theorem noFlush5 : ∀ t : Fin cfg0.N, ¬condLast (grid0.coords t) → (cfg0.win 5).flush t = false := by decide +kernel
theorem live4 : ∀ t : Fin cfg0.N, condLast (grid0.coords t) → cfg0.idle 4 (grid0.coords t) = false := by decide +kernel
theorem live5 : ∀ t : Fin cfg0.N, condLast (grid0.coords t) → cfg0.idle 5 (grid0.coords t) = false := by decide +kernel

/-! ## The invariant and the proof data -/

/-- The region invariant before position `n`: before the first point both accumulators hold anything; afterwards they
    hold what the point before left. -/
def PhiS (c : Dev nD) : (n : ℕ) → n ≤ cfg0.N → sProp 𝕄
  | 0, _ => iprop((∃ d, owns (c : Thread nD τ) sc0 fullShare d) ∗ (∃ d, owns (c : Thread nD τ) sc1 fullShare d))
  | n + 1, hn => iprop(owns (c : Thread nD τ) sc0 fullShare ((accs m c n hn).1) ∗ owns (c : Thread nD τ) sc1 fullShare ((accs m c n hn).2))

theorem PhiS_zero (c : Dev nD) (n : ℕ) (h : n ≤ cfg0.N) (hz : n = 0) :
    PhiS m c n h = iprop((∃ d, owns (c : Thread nD τ) sc0 fullShare d) ∗ (∃ d, owns (c : Thread nD τ) sc1 fullShare d)) := by
  subst hz; rfl

theorem PhiS_succ (c : Dev nD) (n : ℕ) (hn : n < cfg0.N) :
    PhiS m c (n + 1) hn = iprop(owns (c : Thread nD τ) sc0 fullShare ((accs m c n hn).1) ∗ owns (c : Thread nD τ) sc1 fullShare ((accs m c n hn).2)) := rfl

theorem PhiS_pos (c : Dev nD) (n : ℕ) (h : n ≤ cfg0.N) (hz : n ≠ 0) :
    PhiS m c n h = iprop(owns (c : Thread nD τ) sc0 fullShare ((accs m c (n - 1) (by omega)).1) ∗ owns (c : Thread nD τ) sc1 fullShare ((accs m c (n - 1) (by omega)).2)) := by
  cases n with
  | zero => exact absurd rfl hz
  | succ n => rfl

/-- The proof data on core `c`: the arrays as the region finds them; after the body at point `t` each input's buffer
    at its block and each output's at the matching accumulator; the invariant `PhiS`; nothing owed. The normalised
    features are staged by two windows: each holds one half of that array's share, every other input its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (accs m c t.val t.isLt).1
    | ⟨5, _⟩ => (accs m c t.val t.isLt).2
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (accs m c t.val t.isLt).1 := by dsimp only [dats]
theorem after5 (c : Dev nD) (t : Fin cfg0.N) : (dats m 0 c).after 5 t = (accs m c t.val t.isLt).2 := by dsimp only [dats]

end Cert.KernelIdeal.Run

end
-- ==== Proof.KBody.lean ====
/-
  The kernel body at one grid point, in each of its three control cases, and the pipeline's body obligation.

  At every point the body loads the two feature blocks and the two mask tiles, adds the tile's masked row sums to the
  two accumulators, and stores them back. At the first column block it first resets the accumulators to zero; at the last
  it also copies them into the two output windows. Each case is run once over symbolic whole buffers; what each
  buffer holds afterwards is the body's arithmetic (the skeleton's payloads) of what was loaded.
-/
import proofs.«127468_j49890340110909_1_alg».proof.Proof.KData
import Idealize.ShloMosaic.Lib.Pipeline.FrameBody
import Idealize.ShloMosaic.Lib.Pipeline.Value
import Idealize.ShloMosaic.Lib.Pipeline.Regions
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Whole-buffer loads and stores -/

theorem hz2 : (![0, 0] : Fin 2 → Nat) = fun _ => 0 := by funext a; fin_cases a <;> rfl

/-- A load of a whole buffer through the rectangle at the origin reads the buffer's contents. -/
theorem readWhole128 (M : Memref sig .tc .vmem S512x128 .bf16) (h : M.IsWhole) (x : Vec F S512x128 .bf16) :
    View.readAt (Elt F) M.view (Rect.unit (s := S512x128) ![0, 0] S512x128.size inb_S512x128_S512x128_0_0).toLoadRect (h.unread x) = x := by
  rw [View.readAt_eq_ld, h.read_unread, View.ld_unit_zero hz2]
theorem readWhole512 (M : Memref sig .tc .vmem S512x512 .i32) (h : M.IsWhole) (x : Vec F S512x512 .i32) :
    View.readAt (Elt F) M.view (Rect.unit (s := S512x512) ![0, 0] S512x512.size inb_S512x512_S512x512_0_0).toLoadRect (h.unread x) = x := by
  rw [View.readAt_eq_ld, h.read_unread, View.ld_unit_zero hz2]
theorem readWholeCol (M : Memref sig .tc .vmem S512x1 .f32) (h : M.IsWhole) (x : Vec F S512x1 .f32) :
    View.readAt (Elt F) M.view (Rect.unit (s := S512x1) ![0, 0] S512x1.size inb_S512x1_S512x1_0_0).toLoadRect (h.unread x) = x := by
  rw [View.readAt_eq_ld, h.read_unread, View.ld_unit_zero hz2]

/-- After stores the last of which fills the whole buffer, the buffer reads that store's payload. -/
theorem readLastWhole {S : Shape} {e : EltTy} (v : View sig .tc .vmem S e) (f : v.ty.Contents (Elt F)) {off : Fin S.rank → Nat}
    (hz : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f ((⟨Rect.unit off S.size inb, w⟩ : View.Piece (Elt F) S e) :: L)
      (fun y => ⟨⟨Rect.unit off S.size inb, w⟩, List.mem_cons_self, View.mem_set_unit_zero hz inb y⟩)).trans
    (View.canon_cons_unit_zero hz inb w L)

/-- A load of the whole buffer after one store that filled it reads the store's payload. -/
theorem readCovWhole {S : Shape} {e : EltTy} (v : View sig .tc .vmem S e) {off : Fin S.rank → Nat}
    (hz : off = fun _ => 0) (inb : ∀ a, off a + S.size a ≤ S.size a) (w : S.Idx → Elt F e) :
    v.readCov [(⟨Rect.unit off S.size inb, w⟩ : View.Piece (Elt F) S e)] (Rect.unit off S.size inb).toLoadRect = w :=
  View.readCov_unit_zero v hz inb w

/-- A buffer held at contents that read `x` is owned at `x`. -/
theorem own_mk (c : Dev nD) {S : Shape} {e : EltTy} (M : Memref sig .tc .vmem S e) (f : M.view.ty.Contents (Elt F)) (x : S.Idx → Elt F e)
    (hf : M.view.read (Elt F) f = x) :
    (M.view.loc (c : Thread nD τ) ↦[M.view.set]{fullShare} f : sProp 𝕄)
      ⊢ iprop(∃ g, ⌜M.view.read (Elt F) g = x⌝ ∗ M.view.loc (c : Thread nD τ) ↦[M.view.set]{fullShare} g) := by
  iintro H; iexists f; isplitr
  · ipureintro; exact hf
  · iexact H

/-! ## The three cases -/

set_option maxHeartbeats 4000000 in
/-- A point that is neither at the first nor at the last column block: the accumulators grow by the tile's sums. -/
theorem run_mid (c : Dev nD) (i : grid0.Coords)
    (M0 : Memref sig .tc .vmem S512x128 .bf16) (h0 : M0.IsWhole) (M1 : Memref sig .tc .vmem S512x128 .bf16) (h1 : M1.IsWhole)
    (M2 : Memref sig .tc .vmem S512x512 .i32) (h2 : M2.IsWhole) (M3 : Memref sig .tc .vmem S512x512 .i32) (h3 : M3.IsWhole)
    (M4 : Memref sig .tc .vmem S512x1 .f32) (h4 : M4.IsWhole) (M5 : Memref sig .tc .vmem S512x1 .f32) (h5 : M5.IsWhole)
    (hc0 : ¬condFirst i) (hc1 : ¬condLast i)
    (x0 x1 : Vec F S512x128 .bf16) (x2 x3 : Vec F S512x512 .i32) (y4 y5 a0 a1 : Vec F S512x1 .f32) (E : Set ℕ) (K : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3
        ∗ owns (c : Thread nD τ) M4 fullShare y4 ∗ owns (c : Thread nD τ) M5 fullShare y5
        ∗ owns (c : Thread nD τ) sc0 fullShare a0 ∗ owns (c : Thread nD τ) sc1 fullShare a1
        ∗ (iprop(owns (c : Thread nD τ) M0 fullShare x0 ∗ owns (c : Thread nD τ) M1 fullShare x1 ∗ owns (c : Thread nD τ) M2 fullShare x2 ∗ owns (c : Thread nD τ) M3 fullShare x3
        ∗ owns (c : Thread nD τ) M4 fullShare y4 ∗ owns (c : Thread nD τ) M5 fullShare y5
        ∗ owns (c : Thread nD τ) sc0 fullShare (k0_pay7 i x0 x1 x2 a0) ∗ owns (c : Thread nD τ) sc1 fullShare (k0_pay1 (k0_pay4 x0 x1) (k0_pay6 i x3) a1)) -∗ K ⟨⟩))
      ⊢ wp frame (wpE (defs₀ (F := F)) Variants.none c none) E (cc0__kernel i M0 h0 M1 h1 M2 h2 M3 h3 M4 h4 M5 h5 sc0 (Memref.isWhole_whole _) sc1 (Memref.isWhole_whole _)) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := h0.eq_unread hf0; obtain rfl := h1.eq_unread hf1; obtain rfl := h2.eq_unread hf2; obtain rfl := h3.eq_unread hf3
  obtain rfl := (Memref.isWhole_whole cc0_scratch0).eq_unread hfs0; obtain rfl := (Memref.isWhole_whole cc0_scratch1).eq_unread hfs1
  have e0 := readWhole128 M0 h0 x0
  have e1 := readWhole128 M1 h1 x1
  have e2 := readWhole512 M2 h2 x2
  have e3 := readWhole512 M3 h3 x3
  have es0 := readWholeCol sc0 (Memref.isWhole_whole _) a0
  have es1 := readWholeCol sc1 (Memref.isWhole_whole _) a1
  sl_exec (disch := first | exact hc0 | exact hc1)
  sl_step
  iapply Hk
  isplitl [H0]; · iapply (own_mk c M0 _ _ (h0.read_unread _)); iexact H0
  isplitl [H1]; · iapply (own_mk c M1 _ _ (h1.read_unread _)); iexact H1
  isplitl [H2]; · iapply (own_mk c M2 _ _ (h2.read_unread _)); iexact H2
  isplitl [H3]; · iapply (own_mk c M3 _ _ (h3.read_unread _)); iexact H3
  isplitl [H4]; · iapply (own_mk c M4 _ _ hf4); iexact H4
  isplitl [H5]; · iapply (own_mk c M5 _ _ hf5); iexact H5
  isplitl [HS0]; · iapply (own_mk c sc0 _ _ (readLastWhole _ _ hz2 _ _ _)); iexact HS0
  iapply (own_mk c sc1 _ _ (readLastWhole _ _ hz2 _ _ _)); iexact HS1

set_option maxHeartbeats 4000000 in
/-- A point at the first column block: the accumulators are reset to zero, then grow by the tile's sums. -/
theorem run_first (c : Dev nD) (i : grid0.Coords)
    (M0 : Memref sig .tc .vmem S512x128 .bf16) (h0 : M0.IsWhole) (M1 : Memref sig .tc .vmem S512x128 .bf16) (h1 : M1.IsWhole)
    (M2 : Memref sig .tc .vmem S512x512 .i32) (h2 : M2.IsWhole) (M3 : Memref sig .tc .vmem S512x512 .i32) (h3 : M3.IsWhole)
    (M4 : Memref sig .tc .vmem S512x1 .f32) (h4 : M4.IsWhole) (M5 : Memref sig .tc .vmem S512x1 .f32) (h5 : M5.IsWhole)
    (hc0 : condFirst i) (hc1 : ¬condLast i)
    (x0 x1 : Vec F S512x128 .bf16) (x2 x3 : Vec F S512x512 .i32) (y4 y5 a0 a1 : Vec F S512x1 .f32) (E : Set ℕ) (K : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3
        ∗ owns (c : Thread nD τ) M4 fullShare y4 ∗ owns (c : Thread nD τ) M5 fullShare y5
        ∗ owns (c : Thread nD τ) sc0 fullShare a0 ∗ owns (c : Thread nD τ) sc1 fullShare a1
        ∗ (iprop(owns (c : Thread nD τ) M0 fullShare x0 ∗ owns (c : Thread nD τ) M1 fullShare x1 ∗ owns (c : Thread nD τ) M2 fullShare x2 ∗ owns (c : Thread nD τ) M3 fullShare x3
        ∗ owns (c : Thread nD τ) M4 fullShare y4 ∗ owns (c : Thread nD τ) M5 fullShare y5
        ∗ owns (c : Thread nD τ) sc0 fullShare (k0_pay7 i x0 x1 x2 k0_pay2) ∗ owns (c : Thread nD τ) sc1 fullShare (k0_pay1 (k0_pay4 x0 x1) (k0_pay6 i x3) k0_pay3)) -∗ K ⟨⟩))
      ⊢ wp frame (wpE (defs₀ (F := F)) Variants.none c none) E (cc0__kernel i M0 h0 M1 h1 M2 h2 M3 h3 M4 h4 M5 h5 sc0 (Memref.isWhole_whole _) sc1 (Memref.isWhole_whole _)) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := h0.eq_unread hf0; obtain rfl := h1.eq_unread hf1; obtain rfl := h2.eq_unread hf2; obtain rfl := h3.eq_unread hf3
  obtain rfl := (Memref.isWhole_whole cc0_scratch0).eq_unread hfs0; obtain rfl := (Memref.isWhole_whole cc0_scratch1).eq_unread hfs1
  have e0 := readWhole128 M0 h0 x0
  have e1 := readWhole128 M1 h1 x1
  have e2 := readWhole512 M2 h2 x2
  have e3 := readWhole512 M3 h3 x3
  have es0 := readWholeCol sc0 (Memref.isWhole_whole _) a0
  have es1 := readWholeCol sc1 (Memref.isWhole_whole _) a1
  have ec0 := readCovWhole sc0.view hz2 inb_S512x1_S512x1_0_0 (k0_pay2 (F := F))
  have ec1 := readCovWhole sc1.view hz2 inb_S512x1_S512x1_0_0 (k0_pay3 (F := F))
  sl_exec (disch := first | exact hc0 | exact hc1)
  sl_step
  iapply Hk
  isplitl [H0]; · iapply (own_mk c M0 _ _ (h0.read_unread _)); iexact H0
  isplitl [H1]; · iapply (own_mk c M1 _ _ (h1.read_unread _)); iexact H1
  isplitl [H2]; · iapply (own_mk c M2 _ _ (h2.read_unread _)); iexact H2
  isplitl [H3]; · iapply (own_mk c M3 _ _ (h3.read_unread _)); iexact H3
  isplitl [H4]; · iapply (own_mk c M4 _ _ hf4); iexact H4
  isplitl [H5]; · iapply (own_mk c M5 _ _ hf5); iexact H5
  isplitl [HS0]; · iapply (own_mk c sc0 _ _ ((readLastWhole _ _ hz2 _ _ _).trans (by first | rfl | rw [ec0]))); iexact HS0
  iapply (own_mk c sc1 _ _ ((readLastWhole _ _ hz2 _ _ _).trans (by first | rfl | rw [ec1]))); iexact HS1

set_option maxHeartbeats 4000000 in
/-- A point at the last column block: the accumulators grow by the tile's sums and are copied into the two outputs. -/
theorem run_last (c : Dev nD) (i : grid0.Coords)
    (M0 : Memref sig .tc .vmem S512x128 .bf16) (h0 : M0.IsWhole) (M1 : Memref sig .tc .vmem S512x128 .bf16) (h1 : M1.IsWhole)
    (M2 : Memref sig .tc .vmem S512x512 .i32) (h2 : M2.IsWhole) (M3 : Memref sig .tc .vmem S512x512 .i32) (h3 : M3.IsWhole)
    (M4 : Memref sig .tc .vmem S512x1 .f32) (h4 : M4.IsWhole) (M5 : Memref sig .tc .vmem S512x1 .f32) (h5 : M5.IsWhole)
    (hc0 : ¬condFirst i) (hc1 : condLast i)
    (x0 x1 : Vec F S512x128 .bf16) (x2 x3 : Vec F S512x512 .i32) (y4 y5 a0 a1 : Vec F S512x1 .f32) (E : Set ℕ) (K : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3
        ∗ owns (c : Thread nD τ) M4 fullShare y4 ∗ owns (c : Thread nD τ) M5 fullShare y5
        ∗ owns (c : Thread nD τ) sc0 fullShare a0 ∗ owns (c : Thread nD τ) sc1 fullShare a1
        ∗ (iprop(owns (c : Thread nD τ) M0 fullShare x0 ∗ owns (c : Thread nD τ) M1 fullShare x1 ∗ owns (c : Thread nD τ) M2 fullShare x2 ∗ owns (c : Thread nD τ) M3 fullShare x3
        ∗ owns (c : Thread nD τ) M4 fullShare (k0_pay7 i x0 x1 x2 a0) ∗ owns (c : Thread nD τ) M5 fullShare (k0_pay1 (k0_pay4 x0 x1) (k0_pay6 i x3) a1)
        ∗ owns (c : Thread nD τ) sc0 fullShare (k0_pay7 i x0 x1 x2 a0) ∗ owns (c : Thread nD τ) sc1 fullShare (k0_pay1 (k0_pay4 x0 x1) (k0_pay6 i x3) a1)) -∗ K ⟨⟩))
      ⊢ wp frame (wpE (defs₀ (F := F)) Variants.none c none) E (cc0__kernel i M0 h0 M1 h1 M2 h2 M3 h3 M4 h4 M5 h5 sc0 (Memref.isWhole_whole _) sc1 (Memref.isWhole_whole _)) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := h0.eq_unread hf0; obtain rfl := h1.eq_unread hf1; obtain rfl := h2.eq_unread hf2; obtain rfl := h3.eq_unread hf3
  obtain rfl := (Memref.isWhole_whole cc0_scratch0).eq_unread hfs0; obtain rfl := (Memref.isWhole_whole cc0_scratch1).eq_unread hfs1
  have e0 := readWhole128 M0 h0 x0
  have e1 := readWhole128 M1 h1 x1
  have e2 := readWhole512 M2 h2 x2
  have e3 := readWhole512 M3 h3 x3
  have es0 := readWholeCol sc0 (Memref.isWhole_whole _) a0
  have es1 := readWholeCol sc1 (Memref.isWhole_whole _) a1
  have ec0 := readCovWhole sc0.view hz2 inb_S512x1_S512x1_0_0 (k0_pay7 i x0 x1 x2 a0)
  have ec1 := readCovWhole sc1.view hz2 inb_S512x1_S512x1_0_0 (k0_pay1 (k0_pay4 x0 x1) (k0_pay6 i x3) a1)
  sl_exec (disch := first | exact hc0 | exact hc1)
  sl_step
  iapply Hk
  isplitl [H0]; · iapply (own_mk c M0 _ _ (h0.read_unread _)); iexact H0
  isplitl [H1]; · iapply (own_mk c M1 _ _ (h1.read_unread _)); iexact H1
  isplitl [H2]; · iapply (own_mk c M2 _ _ (h2.read_unread _)); iexact H2
  isplitl [H3]; · iapply (own_mk c M3 _ _ (h3.read_unread _)); iexact H3
  isplitl [H4]; · iapply (own_mk c M4 _ _ ((readLastWhole _ _ hz2 _ _ _).trans (by first | rfl | rw [ec0] | rw [e0, e1, e2, es0, ec0]))); iexact H4
  isplitl [H5]; · iapply (own_mk c M5 _ _ ((readLastWhole _ _ hz2 _ _ _).trans (by first | rfl | rw [ec1]))); iexact H5
  isplitl [HS0]; · iapply (own_mk c sc0 _ _ (readLastWhole _ _ hz2 _ _ _)); iexact HS0
  iapply (own_mk c sc1 _ _ (readLastWhole _ _ hz2 _ _ _)); iexact HS1

end Cert.KernelIdeal.Run

end
-- ==== Proof.KOblig.lean ====
/-
  The pipeline's body obligation: at every grid point the body, handed each window's staging buffer at what the pipeline
  put there and the two accumulators at what the point before left, hands them back at the proof data's contents.

  The inputs' buffers hold their blocks at every point, fetched there or not (an unfetched window's block index has not
  moved). Which of the body's three cases applies is decided by the point's column block.
-/
import proofs.«127468_j49890340110909_1_alg».proof.Proof.KBody
import Idealize.ShloMosaic.Lib.Pipeline.FrameBody
import Idealize.ShloMosaic.Lib.Pipeline.Regions
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The inputs' buffers hold their blocks -/

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The accumulators, case by case -/

theorem accs_first (c : Dev nD) (t : Fin cfg0.N) (h0 : t.val % 16 = 0) :
    accs m c t.val t.isLt = accStep m c t (k0_pay2, k0_pay3) := by
  obtain ⟨n, hn⟩ := t
  cases n with
  | zero => rfl
  | succ n =>
    show accStep m c ⟨n + 1, hn⟩ (if (n + 1) % 16 = 0 then (k0_pay2, k0_pay3) else accs m c n (Nat.lt_of_succ_lt hn)) = _
    rw [if_pos h0]

theorem accs_next (c : Dev nD) (t : Fin cfg0.N) (h0 : ¬t.val % 16 = 0) :
    accs m c t.val t.isLt = accStep m c t (accs m c (t.val - 1) (Nat.lt_of_le_of_lt (Nat.sub_le _ _) t.isLt)) := by
  obtain ⟨n, hn⟩ := t
  cases n with
  | zero => exact absurd (Nat.zero_mod _) h0
  | succ n =>
    show accStep m c ⟨n + 1, hn⟩ (if (n + 1) % 16 = 0 then (k0_pay2, k0_pay3) else accs m c n (Nat.lt_of_succ_lt hn)) = _
    rw [if_neg h0]; rfl

/-! ## The obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]

set_option maxHeartbeats 4800000 in
/-- The body at any point: the inputs' buffers hold their blocks; the point's column block says which case it is in;
    the invariant hands the body the accumulators at what the point before left (at anything at the very first point)
    and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 256 := lt_of_lt_of_eq t.isLt (show cfg0.N = 256 from N_0)
  by_cases h0 : t.val % 16 = 0
  · have h1 : ¬t.val % 16 = 15 := by omega
    rw [Dat.leavesExact_idle (dats m 0 c) 4 t (idle4 t (fun h => h1 ((hcondLast t).mp h))) (noFlush4 t (fun h => h1 ((hcondLast t).mp h)))]
    rw [Dat.leavesExact_idle (dats m 0 c) 5 t (idle5 t (fun h => h1 ((hcondLast t).mp h))) (noFlush5 t (fun h => h1 ((hcondLast t).mp h)))]
    rw [accs_first m c t h0]
    unfold accStep; (try dsimp only)
    by_cases hz : t.val = 0
    · rw [PhiS_castSucc m c t, PhiS_zero m c _ _ hz]
      iintro ⟨⟨⟨%a0, HS0⟩, ⟨%a1, HS1⟩⟩, Ho, ⟨%d0, H0⟩, ⟨%d1, H1⟩, ⟨%d2, H2⟩, ⟨%d3, H3⟩, ⟨%d4, H4⟩, ⟨%d5, H5⟩⟩
      iapply (run_first c (grid0.coords t) (ms0 t) (hs0 t) (ms1 t) (hs1 t) (ms2 t) (hs2 t) (ms3 t) (hs3 t) (ms4 t) (hs4 t) (ms5 t) (hs5 t) ((hcondFirst t).mpr h0) (fun h => h1 ((hcondLast t).mp h))
        (iblk m c 0 t) (iblk m c 1 t) (iblk m c 2 t) (iblk m c 3 t) _ _ a0 a1 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩⟩
      iapply (run_first c (grid0.coords t) (ms0 t) (hs0 t) (ms1 t) (hs1 t) (ms2 t) (hs2 t) (ms3 t) (hs3 t) (ms4 t) (hs4 t) (ms5 t) (hs5 t) ((hcondFirst t).mpr h0) (fun h => h1 ((hcondLast t).mp h))
        (iblk m c 0 t) (iblk m c 1 t) (iblk m c 2 t) (iblk m c 3 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun e => h0 (by rw [e])
    rw [accs_next m c t h0]
    unfold accStep; (try dsimp only)
    rw [PhiS_castSucc m c t, PhiS_pos m c _ _ hz]
    by_cases h1 : t.val % 16 = 15
    · rw [show (dats m 0 c).leavesExact 4 t = owns (c : Thread nD τ) (ms4 t) fullShare ((dats m 0 c).after 4 t) from by
        unfold Dat.leavesExact; rw [live4 t ((hcondLast t).mpr h1)], after4]
      rw [show (dats m 0 c).leavesExact 5 t = owns (c : Thread nD τ) (ms5 t) fullShare ((dats m 0 c).after 5 t) from by
        unfold Dat.leavesExact; rw [live5 t ((hcondLast t).mpr h1)], after5]
      rw [accs_next m c t h0]
      unfold accStep; (try dsimp only)
      iintro ⟨⟨HS0, HS1⟩, Ho, ⟨%d0, H0⟩, ⟨%d1, H1⟩, ⟨%d2, H2⟩, ⟨%d3, H3⟩, ⟨%d4, H4⟩, ⟨%d5, H5⟩⟩
      iapply (run_last c (grid0.coords t) (ms0 t) (hs0 t) (ms1 t) (hs1 t) (ms2 t) (hs2 t) (ms3 t) (hs3 t) (ms4 t) (hs4 t) (ms5 t) (hs5 t) (fun h => h0 ((hcondFirst t).mp h)) ((hcondLast t).mpr h1)
        (iblk m c 0 t) (iblk m c 1 t) (iblk m c 2 t) (iblk m c 3 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dats m 0 c) 4 t (idle4 t (fun h => h1 ((hcondLast t).mp h))) (noFlush4 t (fun h => h1 ((hcondLast t).mp h)))]
      rw [Dat.leavesExact_idle (dats m 0 c) 5 t (idle5 t (fun h => h1 ((hcondLast t).mp h))) (noFlush5 t (fun h => h1 ((hcondLast t).mp h)))]
      iintro ⟨⟨HS0, HS1⟩, Ho, ⟨%d0, H0⟩, ⟨%d1, H1⟩, ⟨%d2, H2⟩, ⟨%d3, H3⟩, ⟨%d4, H4⟩, ⟨%d5, H5⟩⟩
      iapply (run_mid c (grid0.coords t) (ms0 t) (hs0 t) (ms1 t) (hs1 t) (ms2 t) (hs2 t) (ms3 t) (hs3 t) (ms4 t) (hs4 t) (ms5 t) (hs5 t) (fun h => h0 ((hcondFirst t).mp h)) (fun h => h1 ((hcondLast t).mp h))
        (iblk m c 0 t) (iblk m c 1 t) (iblk m c 2 t) (iblk m c 3 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Run

end
-- ==== Proof.KExit.lean ====
/-
  The TensorCore's buffers when the kernel region is left: the two result arrays at what the region wrote into them,
  every other buffer as the region found it.
-/
import proofs.«127468_j49890340110909_1_alg».proof.Proof.KData
import Idealize.ShloMosaic.Lib.Pipeline.FrameBody
import Idealize.ShloMosaic.Lib.Pipeline.Regions
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers at the region's exit, for any contents `X4`, `X5` of the two result arrays. -/
def Vx (c : Dev nD) (X4 : (Proc.devRef .tc main_v6_0 : DevRef τ sig).ty.Contents (Elt F))
    (X5 : (Proc.devRef .tc main_v6_1 : DevRef τ sig).ty.Contents (Elt F)) : Valuation τ sig (Elt F) :=
  Function.update (Function.update (Ve m c) (Proc.devRef .tc main_v6_0) X4) (Proc.devRef .tc main_v6_1) X5

theorem Vx_v6_1 (c : Dev nD) (X4) (X5) : Vx m c X4 X5 (Proc.devRef .tc main_v6_1) = X5 := by
  unfold Vx; exact Function.update_self ..

theorem Vx_v6_0 (c : Dev nD) (X4) (X5) : Vx m c X4 X5 (Proc.devRef .tc main_v6_0) = X4 := by
  unfold Vx
  rw [Function.update_of_ne (by decide)]
  exact Function.update_self ..

theorem Vx_of_ne (c : Dev nD) (X4) (X5) (b : DevRef τ sig) (h0 : b ≠ Proc.devRef .tc main_v6_0) (h1 : b ≠ Proc.devRef .tc main_v6_1) :
    Vx m c X4 X5 b = Ve m c b := by
  unfold Vx
  rw [Function.update_of_ne h1, Function.update_of_ne h0]

end Cert.KernelIdeal.Run

end
-- ==== Proof.KLaunch.lean ====
/-
  The launch: @main as four segments — the row norms (an outlined function's five operations), the six operations that
  normalise the features, the kernel region, and the ten operations that turn the two columns of row sums into the loss.

  Between segments a core holds its unscoped buffers at a valuation. The region is entered from the valuation the
  first two stretches leave: the normalised features are handed to the two windows that stage them, one half of the
  buffer's share each, the two mask arrays and the two result arrays to their windows whole, and everything else
  bypasses the region. It is left with the two result arrays at what the write-backs made of them, the features'
  two halves joined again (an input array ends as it began), and the rest untouched; the last stretch runs from there.
-/
import proofs.«127468_j49890340110909_1_alg».proof.Proof.KExit
import Idealize.ShloMosaic.Lib.Pipeline.FrameBody
import Idealize.ShloMosaic.Lib.Pipeline.Regions
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

open Idealize.ShloMosaic.Pipeline (ucRefs)

-- The body obligation is proved apart; the launch takes it as given.
variable (hb : ∀ c : Dev nD, BodyObligation (dats (F := F) m 0 c) (defs₀ (F := F)) Variants.none () Set.univ)

abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers: the core's `owes`, at nothing. -/
abbrev R (c : Dev nD) : sProp 𝕄 := iprop(∃ W, owes (c : Thread nD τ) (0 : CellTallies nD τ sig Unit) W)

theorem fresh0 : ∀ op ∈ (hostOps0 : List (HloOp τ sig (Elt F))), op.fresh = ∅ := by
  intro _ h; (repeat (cases h with | head => rfl | tail _ h => ?_)); exact nomatch h
theorem fresh0_1 : ∀ op ∈ (hostOps0_1 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

/-- The row norms. -/
def seg0 : Pipeline.HostSeg (Name := ℕ) (U := UR sig nD τ) (pcfgs (F := F)) defs₀ 𝒱₀ L lv :=
  Pipeline.HostSeg.ofOps _ _ _ _ _ (ucRefs τ sig) hostOps0 (fun op h => Pipeline.sub_ucRefs op ((List.forall_iff_forall_mem.mp hostOps0_sub) op h))
    fresh0 (V₀ m) R
/-- The normalisation. -/
def seg1 : Pipeline.HostSeg (Name := ℕ) (U := UR sig nD τ) (pcfgs (F := F)) defs₀ 𝒱₀ L lv :=
  Pipeline.HostSeg.ofOps _ _ _ _ _ (ucRefs τ sig) hostOps0_1 (fun op h => Pipeline.sub_ucRefs op ((List.forall_iff_forall_mem.mp hostOps0_1_sub) op h))
    fresh0_1 (fun c => StableHlo.after hostOps0 (V₀ m c)) R

/-- The two result arrays after the region's last write-back. -/
abbrev F4 (c : Dev nD) : (Proc.devRef .tc main_v6_0 : DevRef τ sig).ty.Contents (Elt F) := (dats m 0 c).arrAt 4 cfg0.N
abbrev F5 (c : Dev nD) : (Proc.devRef .tc main_v6_1 : DevRef τ sig).ty.Contents (Elt F) := (dats m 0 c).arrAt 5 cfg0.N
/-- The buffers when the region is left. -/
abbrev Ve' (c : Dev nD) : Valuation τ sig (Elt F) := Vx m c (F4 m c) (F5 m c)

/-- From the columns of row sums to the loss. -/
def segT : Pipeline.HostSeg (Name := ℕ) (U := UR sig nD τ) (pcfgs (F := F)) defs₀ 𝒱₀ L lv :=
  Pipeline.HostSeg.ofOps _ _ _ _ _ (ucRefs τ sig) hostOps1 (fun op h => Pipeline.sub_ucRefs op ((List.forall_iff_forall_mem.mp hostOps1_sub) op h))
    fresh1 (Ve' m) R

/-! ## The windows' arrays, listed -/

omit [FloatOps F] [Named F] in
/-- The five distinct buffers behind the six windows, each whole at the full share. -/
theorem arrBufs_list (c : Dev nD) (W : (b : Ref sig .tc) → Buf (Elt F) ((c : Thread nD τ).loc b)) :
    (Pipeline.arrBufs spec0 c W : sProp 𝕄)
      = iprop((((c : Thread nD τ).loc main_v5) ↦{fullShare} W main_v5) ∗ (((c : Thread nD τ).loc main_arg1) ↦{fullShare} W main_arg1)
          ∗ (((c : Thread nD τ).loc main_arg2) ↦{fullShare} W main_arg2) ∗ (((c : Thread nD τ).loc main_v6_0) ↦{fullShare} W main_v6_0)
          ∗ (((c : Thread nD τ).loc main_v6_1) ↦{fullShare} W main_v6_1)) := by
  unfold Pipeline.arrBufs
  exact bigSep_eq_bigSepL_of_eq [main_v5, main_arg1, main_arg2, main_v6_0, main_v6_1] (by decide) (by decide) _

/-- The six windows' arrays at contents G: the two windows on the normalised features hold one half of that buffer's
    share each, every other window its array whole. -/
theorem arrays_list (c : Dev nD) (G : (w : Fin cfg0.W) → Buf (Elt F) ((cfg0.win w).arr.view.loc (c : Thread nD τ))) :
    ((dats m 0 c).arrays G : sProp 𝕄)
      = iprop((((c : Thread nD τ).loc main_v5) ↦{fullShare.left} G 0) ∗ (((c : Thread nD τ).loc main_v5) ↦{fullShare.right} G 1)
          ∗ (((c : Thread nD τ).loc main_arg1) ↦{fullShare} G 2) ∗ (((c : Thread nD τ).loc main_arg2) ↦{fullShare} G 3)
          ∗ (((c : Thread nD τ).loc main_v6_0) ↦{fullShare} G 4) ∗ (((c : Thread nD τ).loc main_v6_1) ↦{fullShare} G 5)) := by
  have hs : ∀ (w : Fin cfg0.W) (q : PosShare TreeShare),
      (((cfg0.win w).arr.view.loc (c : Thread nD τ)) ↦[(cfg0.win w).arr.view.set]{q} G w : sProp 𝕄)
        = (((cfg0.win w).arr.view.loc (c : Thread nD τ)) ↦{q} G w) := fun w q => by
    have h : (cfg0.win w).arr.view.set = Finset.univ := (arr_whole0 w).set_eq_univ
    rw [h]
  unfold Pipeline.Dat.arrays
  rw [bigSep_W0]
  dsimp only
  rw [hs 0, hs 1, hs 2, hs 3, hs 4, hs 5]
  rfl

/-! ## The buffers at the region's exit, against those at its entry -/

/-- Off the two result arrays the exit valuation reads as the entry one. -/
theorem Ve'_of_ne (c : Dev nD) (b : Ref sig .tc) (h0 : b ≠ main_v6_0) (h1 : b ≠ main_v6_1) :
    Ve' m c (Proc.devRef .tc b) = V m c b :=
  Vx_of_ne m c _ _ _ (StableHlo.devRef_ne_of_ne h0) (StableHlo.devRef_ne_of_ne h1)

/-- The unscoped buffers that are no window's array are held at the same contents at both ends of the region. -/
theorem unscopedRest_exit (c : Dev nD) :
    (Pipeline.unscopedRest spec0 c (fun b => Ve' m c (Proc.devRef .tc b)) : sProp 𝕄) = Pipeline.unscopedRest spec0 c (V m c) := by
  unfold Pipeline.unscopedRest
  refine bigSep_congr fun b hb => ?_
  have hn := (Finset.mem_sdiff.mp hb).2
  have h0 : b ≠ main_v6_0 := fun h => hn (by rw [h]; decide)
  have h1 : b ≠ main_v6_1 := fun h => hn (by rw [h]; decide)
  dsimp only
  rw [Ve'_of_ne m c b h0 h1]

/-- At the two result arrays it reads what the region's last write-back left. -/
theorem Ve'_v6_0 (c : Dev nD) : Ve' m c (Proc.devRef .tc main_v6_0) = F4 m c := Vx_v6_0 m c _ _
theorem Ve'_v6_1 (c : Dev nD) : Ve' m c (Proc.devRef .tc main_v6_1) = F5 m c := Vx_v6_1 m c _ _

/-! ## The region -/

set_option backward.isDefEq.respectTransparency.types false in
/-- The kernel region: entered from the buffers the two host stretches leave, left with the two result arrays at what
    the write-backs made of them. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (hb c).loose
  hwaits := Pipeline.hwaits_of_owed_zero _ _ _ _ L lv 0 fun _ _ => rfl
  pre c := iprop(StableHlo.held (c : Thread nD τ) (ucRefs τ sig) (Ve m c) ∗ R c)
  post c := iprop(StableHlo.held (c : Thread nD τ) (ucRefs τ sig) (Ve' m c) ∗ R c)
  X c := iprop(emp)
  Y c := iprop(emp)
  Z c := Pipeline.unscopedRest spec0 c (V m c)
  hentry c := by
    rw [show StableHlo.held (c : Thread nD τ) (ucRefs τ sig) (Ve m c) = unscopedBufs c (V m c) from (Pipeline.unscopedBufs_held c (Ve m c)).symm,
      Pipeline.unscopedBufs_split₀ cfgs 0 winFacts₀0.arr_unscoped c (V m c), arrBufs_list, arrays_list]
    iintro ⟨⟨⟨⟨H5, H1, H2, H40, H41⟩, Hrest⟩, HO⟩, -, -⟩
    ihave H5' := (pointsTo_share (PosShare.mem_left_op_right fullShare)).1 $$ H5
    icases H5' with ⟨H5l, H5r⟩
    imodintro
    isplitl [H5l H5r H1 H2 H40 H41]
    · isplitl [H5l]; · iexact H5l
      isplitl [H5r]; · iexact H5r
      isplitl [H1]; · iexact H1
      isplitl [H2]; · iexact H2
      isplitl [H40]; · iexact H40
      iexact H41
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = PhiS m c 0 (Nat.zero_le _) from rfl, PhiS_zero m c 0 _ rfl, scopedRest0_eq]
    iintro ⟨-, -, ⟨%f0, H0⟩, ⟨%f1, H1⟩⟩
    isplitl [H0]
    · iexists f0; rw [owns_whole]; iexact H0
    · iexists f1; rw [owns_whole]; iexact H1
  hout c := by
    rw [Pipeline.ownSems0_none, scopedRest0_eq,
      show (dats m 0 c).Φ (Fin.last cfg0.N) = PhiS m c cfg0.N (Nat.le_refl _) from rfl, PhiS_pos m c cfg0.N _ (by decide)]
    iintro ⟨H0, H1⟩
    isplitr; · iempintro
    isplitr; · iempintro
    isplitl [H0]
    · iexists _; rw [← owns_whole]; iexact H0
    · iexists _; rw [← owns_whole]; iexact H1
  hexit c := by
    rw [show StableHlo.held (c : Thread nD τ) (ucRefs τ sig) (Ve' m c) = unscopedBufs c (fun b => Ve' m c (Proc.devRef .tc b)) from (Pipeline.unscopedBufs_held c (Ve' m c)).symm,
      Pipeline.unscopedBufs_split₀ cfgs 0 winFacts₀0.arr_unscoped c _, arrBufs_list, unscopedRest_exit, arrays_list,
      Ve'_of_ne m c main_v5 (by decide) (by decide), Ve'_of_ne m c main_arg1 (by decide) (by decide),
      Ve'_of_ne m c main_arg2 (by decide) (by decide), Ve'_v6_0, Ve'_v6_1]
    have e0 : ∀ t, (dats m 0 c).arrAt 0 t = V m c main_v5 := (dats m 0 c).arrAt_in 0 rfl
    have e1 : ∀ t, (dats m 0 c).arrAt 1 t = V m c main_v5 := (dats m 0 c).arrAt_in 1 rfl
    have e2 : ∀ t, (dats m 0 c).arrAt 2 t = V m c main_arg1 := (dats m 0 c).arrAt_in 2 rfl
    have e3 : ∀ t, (dats m 0 c).arrAt 3 t = V m c main_arg2 := (dats m 0 c).arrAt_in 3 rfl
    rw [e0, e1, e2, e3]
    iintro ⟨⟨H5l, H5r, H1, H2, H40, H41⟩, HO, -, Hrest⟩
    ihave H5 := (pointsTo_share (PosShare.mem_left_op_right fullShare)).2 $$ [H5l H5r]
    · isplitl [H5l] <;> iassumption
    imodintro
    isplitr [HO]
    · isplitr [Hrest]
      · isplitl [H5]; · iexact H5
        isplitl [H1]; · iexact H1
        isplitl [H2]; · iexact H2
        isplitl [H40]; · iexact H40
        iexact H41
      · iexact Hrest
    · unfold Pipeline.Dat.owesAt Pipeline.owesWithin
      icases HO with ⟨%W, -, HO⟩; iexists W; iexact HO

end Cert.KernelIdeal.Run

end
-- ==== Proof.KRun.lean ====
/-
  The launch of @main: the four segments in order. From any memory with every counter at zero, every weakly fair
  execution on the cores terminates, and every final memory holds, at each unscoped buffer, what the last stretch of
  host operations makes of the buffers the kernel region leaves.

  The thread state between segments is the unscoped buffers held at a valuation beside what the core owes (nothing):
  each segment is entered from exactly what the one before it left, so the junctions are identities. The first state is
  made from what the launch deals each core; the last is read against the final state buffer by buffer.
-/
import proofs.«127468_j49890340110909_1_alg».proof.Proof.KLaunch
import Idealize.ShloMosaic.Lib.Pipeline.FrameBody
import Idealize.ShloMosaic.Lib.Pipeline.Regions
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

open Idealize.ShloMosaic.Pipeline (ucRefs)

-- The body obligation is proved apart; the launch takes it as given.
variable (hb : ∀ c : Dev nD, BodyObligation (dats (F := F) m 0 c) (defs₀ (F := F)) Variants.none () Set.univ)

/-- @main as the list of its four segments. -/
abbrev segs : List (Pipeline.Seg (pcfgs (F := F)) adm (dats m) () defs₀ 𝒱₀ L lv) :=
  [.host (seg0 m), .host (seg1 m), .region (reg0 m hb), .host (segT m)]

/-- @main on a core is the run of the four segments: its chain of items is the segments' fragments in order. -/
theorem main_run (c : Dev nD) : main (F := F) c = Pipeline.Seg.run (segs m hb) := by
  rw [main_chain, Pipeline.Seg.run_eq_chain]
  rfl

include hb

set_option backward.isDefEq.respectTransparency.types false in
/-- From any memory with zero counters: every weakly fair execution of @main terminates, and every final memory
    holds at each unscoped buffer what the last host operations make of the buffers the region leaves. -/
theorem run_main : θ_run defs (onTc (τ := τ) (main (F := F))) ⟨m, fun _ => 0, ρ⟩
    (fun r => ∀ c : Dev nD, ∀ b ∈ ucRefs τ sig,
      r.2.mem ((c : Thread nD τ).1, b) = StableHlo.after hostOps1 (Ve' m c) b) :=
  Pipeline.θ_run_regions_kit (pcfgs (F := F)) adm (dats m) () cellOf_inj EP defs₀ 𝒱₀ L lv m ρ main (segs m hb)
    (fun c Q => by rw [main_run m hb c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V₀ m c) ∗ R c))
    (Tₙ := fun c => StableHlo.held (c : Thread nD τ) (ucRefs τ sig) (StableHlo.after hostOps1 (Ve' m c)))
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := fun c s => ∀ b ∈ ucRefs τ sig, s.mem ((c : Thread nD τ).1, b) = StableHlo.after hostOps1 (Ve' m c) b)
    (hfin := fun c s' => by
      unfold StableHlo.held
      iintro ⟨Hh, HSI⟩
      imodintro
      iapply (pointsTo_read_all (ucRefs τ sig) (fun b => ((c : Thread nD τ).1, b)) (StableHlo.after hostOps1 (Ve' m c)) s')
      isplitl [Hh] <;> iassumption)
    (hQ := fun _ h => h)

end Cert.KernelIdeal.Run

end
-- ==== Proof.KArgs.lean ====
/-
  The host operations leave the three arguments alone: none of the operations before the kernel region writes an
  argument's buffer, and none of the operations after it does.
-/
import proofs.«127468_j49890340110909_1_alg».proof.Proof.KExit
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.Sem

variable {F : FTy → Type} [FloatOps F] [Named F]

variable (m : (ℓ : Loc nD τ sig) → Buf (Elt F) ℓ)

/-! ## The arguments reach the region as launched -/

/-- No host operation before the region writes the features. -/
theorem V_arg0 (c : Dev nD) : V m c main_arg0 = m ((c : Thread nD τ).loc main_arg0) := by
  dsimp only [V, Ve]
  simp only [hostOps0, hostOps0_1]
  after_results

/-- No host operation before the region writes the positive mask. -/
theorem V_arg1 (c : Dev nD) : V m c main_arg1 = m ((c : Thread nD τ).loc main_arg1) := by
  dsimp only [V, Ve]
  simp only [hostOps0, hostOps0_1]
  after_results

/-- No host operation before the region writes the negative mask. -/
theorem V_arg2 (c : Dev nD) : V m c main_arg2 = m ((c : Thread nD τ).loc main_arg2) := by
  dsimp only [V, Ve]
  simp only [hostOps0, hostOps0_1]
  after_results

/-! ## The host operations after the region leave the arguments alone -/

/-- The operations after the region do not write the features. -/
theorem tail_keeps_arg0 (W : Valuation τ sig (Elt F)) :
    StableHlo.after hostOps1 W (Proc.devRef .tc main_arg0) = W (Proc.devRef .tc main_arg0) := by
  simp only [hostOps1]
  after_results

/-- The operations after the region do not write the positive mask. -/
theorem tail_keeps_arg1 (W : Valuation τ sig (Elt F)) :
    StableHlo.after hostOps1 W (Proc.devRef .tc main_arg1) = W (Proc.devRef .tc main_arg1) := by
  simp only [hostOps1]
  after_results

/-- The operations after the region do not write the negative mask. -/
theorem tail_keeps_arg2 (W : Valuation τ sig (Elt F)) :
    StableHlo.after hostOps1 W (Proc.devRef .tc main_arg2) = W (Proc.devRef .tc main_arg2) := by
  simp only [hostOps1]
  after_results

/-- The three together: an argument's buffer is as it was. -/
theorem tail_keeps (W : Valuation τ sig (Elt F)) (b : Ref sig .tc) (hb : b = main_arg0 ∨ b = main_arg1 ∨ b = main_arg2) :
    StableHlo.after hostOps1 W (Proc.devRef .tc b) = W (Proc.devRef .tc b) := by
  rcases hb with rfl | rfl | rfl
  · exact tail_keeps_arg0 W
  · exact tail_keeps_arg1 W
  · exact tail_keeps_arg2 W

end Cert.KernelIdeal.Run

end
-- ==== Proof.KFrame.lean ====
/-
  What the launch says of the result and of the arguments. Every final memory holds at each unscoped buffer what the
  last host operations make of the buffers the region leaves; read at the three arguments this is their launch
  contents (no host operation and no write-back touches an argument), and read at the result it is the host's last
  operations applied to the two columns of row sums.
-/
import proofs.«127468_j49890340110909_1_alg».proof.Proof.KRun
import proofs.«127468_j49890340110909_1_alg».proof.Proof.KArgs

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf ucRefs)

variable {F : FTy → Type} [FloatOps F] [Named F]

variable (m : (ℓ : Loc nD τ sig) → Buf (Elt F) ℓ) (ρ : Dev nD → PrngReg)

variable (hb : ∀ c : Dev nD, BodyObligation (dats (F := F) m 0 c) (defs₀ (F := F)) Variants.none () Set.univ)

/-! ## The buffers read are unscoped -/

theorem mem_arg0 : (Proc.devRef .tc main_arg0 : DevRef τ sig) ∈ ucRefs τ sig := by decide
theorem mem_arg1 : (Proc.devRef .tc main_arg1 : DevRef τ sig) ∈ ucRefs τ sig := by decide
theorem mem_arg2 : (Proc.devRef .tc main_arg2 : DevRef τ sig) ∈ ucRefs τ sig := by decide
theorem mem_v14 : (Proc.devRef .tc main_v14 : DevRef τ sig) ∈ ucRefs τ sig := by decide

/-! ## An argument ends as launched -/

/-- The last host operations do not write the features, the region's exit leaves them as it found them, and the
    operations before the region do not write them. -/
theorem kept_arg0 (c : Dev nD) :
    StableHlo.after hostOps1 (Ve' m c) (Proc.devRef .tc main_arg0) = m ((c : Thread nD τ).loc main_arg0) :=
  (tail_keeps_arg0 (Ve' m c)).trans
    ((Vx_of_ne m c (F4 m c) (F5 m c) (Proc.devRef .tc main_arg0) (by decide) (by decide)).trans (V_arg0 m c))

theorem kept_arg1 (c : Dev nD) :
    StableHlo.after hostOps1 (Ve' m c) (Proc.devRef .tc main_arg1) = m ((c : Thread nD τ).loc main_arg1) :=
  (tail_keeps_arg1 (Ve' m c)).trans
    ((Vx_of_ne m c (F4 m c) (F5 m c) (Proc.devRef .tc main_arg1) (by decide) (by decide)).trans (V_arg1 m c))

theorem kept_arg2 (c : Dev nD) :
    StableHlo.after hostOps1 (Ve' m c) (Proc.devRef .tc main_arg2) = m ((c : Thread nD τ).loc main_arg2) :=
  (tail_keeps_arg2 (Ve' m c)).trans
    ((Vx_of_ne m c (F4 m c) (F5 m c) (Proc.devRef .tc main_arg2) (by decide) (by decide)).trans (V_arg2 m c))

include hb

/-- @main runs (terminates, no fault) and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h c _ mem_arg0).trans (kept_arg0 m c), (h c _ mem_arg1).trans (kept_arg1 m c), (h c _ mem_arg2).trans (kept_arg2 m c)⟩)
    (run_main m ρ hb)

/-- @main runs, its result ends at the last host operations applied to the two columns the region's write-backs
    leave, and its argument arrays end unchanged. -/
theorem result : θ_run defs (onTc (τ := τ) (main (F := F))) ⟨m, fun _ => 0, ρ⟩ (fun r => ∀ c : Dev nD,
      r.2.mem ((c.tc : Thread nD τ).loc main_v14)
        = StableHlo.after hostOps1 (Vx m c ((dats m 0 c).arrAt 4 cfg0.N) ((dats m 0 c).arrAt 5 cfg0.N))
            (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨h c _ mem_v14, (h c _ mem_arg0).trans (kept_arg0 m c), (h c _ mem_arg1).trans (kept_arg1 m c),
        (h c _ mem_arg2).trans (kept_arg2 m c)⟩)
    (run_main m ρ hb)

end Cert.KernelIdeal.Run

end
-- ==== Proof.BData.lean ====
/-
  The proof data of the one kernel region: what each window's staging buffer and the two scratch accumulators hold
  after the body at each grid point.

  The grid is 16 × 16, point `t` at row block `t / 16` and column block `t % 16`. The four input windows hold, at every
  point, their block of the array they stage (rows of the row block and rows of the column block of the normalised
  features, and the two mask tiles). The two scratch accumulators are reset at the first column block of each row
  block and then grow by the tile's masked row sums; the two output windows receive the accumulators at the last
  column block, and are left untouched elsewhere.
-/
import proofs.«127468_j49890340110909_1_alg».proof.Proof.Gen.Kernel.Launch
import proofs.«127468_j49890340110909_1_alg».proof.Proof.Gen.Kernel.Skeleton
import proofs.«127468_j49890340110909_1_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main before the region -/

/-- Core `c`'s buffers at launch, as a valuation. -/
abbrev V₀ (c : Dev nD) : Valuation τ sig (Elt F) := fun b => m (c, b)
/-- After the host operations before the region: the norm of each row, its floor, the quotient, the format change. -/
abbrev Ve (c : Dev nD) : Valuation τ sig (Elt F) := StableHlo.after hostOps0_1 (StableHlo.after hostOps0 (V₀ m c))
/-- The same read at a TensorCore reference. -/
abbrev V (c : Dev nD) (b : Ref sig .tc) : Buf (Elt F) ((c : Thread nD τ).loc b) := Ve m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- One point's step of the two accumulators: from what they held, what the body stores back. -/
def accStep (c : Dev nD) (t : Fin cfg0.N) (prev : Vec F S512x1 .f32 × Vec F S512x1 .f32) : Vec F S512x1 .f32 × Vec F S512x1 .f32 :=
  (k0_pay7 (grid0.coords t) (iblk m c 0 t) (iblk m c 1 t) (iblk m c 2 t) prev.1,
   k0_pay1 (k0_pay4 (iblk m c 0 t) (iblk m c 1 t)) (k0_pay6 (grid0.coords t) (iblk m c 3 t)) prev.2)

/-- What the two accumulators hold after the body at position `n`: reset to zero at the first column block of a row
    block, carried from the point before otherwise, then stepped. -/
def accs (c : Dev nD) : (n : ℕ) → n < cfg0.N → Vec F S512x1 .f32 × Vec F S512x1 .f32
  | 0, hn => accStep m c ⟨0, hn⟩ (k0_pay2, k0_pay3)
  | n + 1, hn => accStep m c ⟨n + 1, hn⟩ (if (n + 1) % 16 = 0 then (k0_pay2, k0_pay3) else accs c n (Nat.lt_of_succ_lt hn))

/-! ## The staging memrefs and the scratch -/

/-- Each window's current staging memref at point `t`, as the pipeline passes it to the body, and its wholeness. -/
abbrev ms0 (t : Fin cfg0.N) : Memref sig .tc .vmem S512x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1 .f32 := win0_5.stage (cfg0.slots t 5)
abbrev hs5 (t : Fin cfg0.N) : (ms5 t).IsWhole := hstage0_5 ((cfg0.slots t 5).cast nbuf0_5)
/-- The two accumulators: whole scoped buffers of the kernel's own. -/
abbrev sc0 : Memref sig .tc .vmem S512x1 .f32 := Memref.whole cc0_scratch0
abbrev sc1 : Memref sig .tc .vmem S512x1 .f32 := Memref.whole cc0_scratch1

/-! ## The body's two conditions, in closed form over the grid -/

/-- "This is the first column block": the accumulators are reset. -/
abbrev condFirst (i : grid0.Coords) : Prop :=
  (Scalar.cmpi .ne (Scalar.extui (Scalar.cmpi .eq (BitVec.ofNat 32 (i 1).val) 0#32)) 0#32) = 1#1
theorem hcondFirst : ∀ t : Fin cfg0.N, condFirst (grid0.coords t) ↔ t.val % 16 = 0 :=
  (by decide +kernel : ∀ t : Fin grid0.N, condFirst (grid0.coords t) ↔ t.val % 16 = 0)

/-- "This is the last column block": the accumulators are copied out. -/
abbrev condLast (i : grid0.Coords) : Prop := k0_cond2 i = 1#1
theorem hcondLast : ∀ t : Fin cfg0.N, condLast (grid0.coords t) ↔ t.val % 16 = 15 :=
  (by decide +kernel : ∀ t : Fin grid0.N, condLast (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last column block the outputs are idle and not written back; at it they are live. -/
theorem idle4 : ∀ t : Fin cfg0.N, ¬condLast (grid0.coords t) → cfg0.idle 4 (grid0.coords t) = true := by decide +kernel
theorem idle5 : ∀ t : Fin cfg0.N, ¬condLast (grid0.coords t) → cfg0.idle 5 (grid0.coords t) = true := by decide +kernel
theorem noFlush4 : ∀ t : Fin cfg0.N, ¬condLast (grid0.coords t) → (cfg0.win 4).flush t = false := by decide +kernel
theorem noFlush5 : ∀ t : Fin cfg0.N, ¬condLast (grid0.coords t) → (cfg0.win 5).flush t = false := by decide +kernel
theorem live4 : ∀ t : Fin cfg0.N, condLast (grid0.coords t) → cfg0.idle 4 (grid0.coords t) = false := by decide +kernel
theorem live5 : ∀ t : Fin cfg0.N, condLast (grid0.coords t) → cfg0.idle 5 (grid0.coords t) = false := by decide +kernel

/-! ## The invariant and the proof data -/

/-- The region invariant before position `n`: before the first point both accumulators hold anything; afterwards they
    hold what the point before left. -/
def PhiS (c : Dev nD) : (n : ℕ) → n ≤ cfg0.N → sProp 𝕄
  | 0, _ => iprop((∃ d, owns (c : Thread nD τ) sc0 fullShare d) ∗ (∃ d, owns (c : Thread nD τ) sc1 fullShare d))
  | n + 1, hn => iprop(owns (c : Thread nD τ) sc0 fullShare ((accs m c n hn).1) ∗ owns (c : Thread nD τ) sc1 fullShare ((accs m c n hn).2))

theorem PhiS_zero (c : Dev nD) (n : ℕ) (h : n ≤ cfg0.N) (hz : n = 0) :
    PhiS m c n h = iprop((∃ d, owns (c : Thread nD τ) sc0 fullShare d) ∗ (∃ d, owns (c : Thread nD τ) sc1 fullShare d)) := by
  subst hz; rfl

theorem PhiS_succ (c : Dev nD) (n : ℕ) (hn : n < cfg0.N) :
    PhiS m c (n + 1) hn = iprop(owns (c : Thread nD τ) sc0 fullShare ((accs m c n hn).1) ∗ owns (c : Thread nD τ) sc1 fullShare ((accs m c n hn).2)) := rfl

theorem PhiS_pos (c : Dev nD) (n : ℕ) (h : n ≤ cfg0.N) (hz : n ≠ 0) :
    PhiS m c n h = iprop(owns (c : Thread nD τ) sc0 fullShare ((accs m c (n - 1) (by omega)).1) ∗ owns (c : Thread nD τ) sc1 fullShare ((accs m c (n - 1) (by omega)).2)) := by
  cases n with
  | zero => exact absurd rfl hz
  | succ n => rfl

/-- The proof data on core `c`: the arrays as the region finds them; after the body at point `t` each input's buffer
    at its block and each output's at the matching accumulator; the invariant `PhiS`; nothing owed. The normalised
    features are staged by two windows: each holds one half of that array's share, every other input its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (accs m c t.val t.isLt).1
    | ⟨5, _⟩ => (accs m c t.val t.isLt).2
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (accs m c t.val t.isLt).1 := by dsimp only [dats]
theorem after5 (c : Dev nD) (t : Fin cfg0.N) : (dats m 0 c).after 5 t = (accs m c t.val t.isLt).2 := by dsimp only [dats]

end Cert.Kernel.Run

end
-- ==== Proof.BBody.lean ====
/-
  The kernel body at one grid point, in each of its three control cases, and the pipeline's body obligation.

  At every point the body loads the two feature blocks and the two mask tiles, adds the tile's masked row sums to the
  two accumulators, and stores them back. At the first column block it first resets the accumulators to zero; at the last
  it also copies them into the two output windows. Each case is run once over symbolic whole buffers; what each
  buffer holds afterwards is the body's arithmetic (the skeleton's payloads) of what was loaded.
-/
import proofs.«127468_j49890340110909_1_alg».proof.Proof.BData
import Idealize.ShloMosaic.Lib.Pipeline.FrameBody
import Idealize.ShloMosaic.Lib.Pipeline.Value
import Idealize.ShloMosaic.Lib.Pipeline.Regions
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Whole-buffer loads and stores -/

theorem hz2 : (![0, 0] : Fin 2 → Nat) = fun _ => 0 := by funext a; fin_cases a <;> rfl

/-- A load of a whole buffer through the rectangle at the origin reads the buffer's contents. -/
theorem readWhole128 (M : Memref sig .tc .vmem S512x128 .bf16) (h : M.IsWhole) (x : Vec F S512x128 .bf16) :
    View.readAt (Elt F) M.view (Rect.unit (s := S512x128) ![0, 0] S512x128.size inb_S512x128_S512x128_0_0).toLoadRect (h.unread x) = x := by
  rw [View.readAt_eq_ld, h.read_unread, View.ld_unit_zero hz2]
theorem readWhole512 (M : Memref sig .tc .vmem S512x512 .i32) (h : M.IsWhole) (x : Vec F S512x512 .i32) :
    View.readAt (Elt F) M.view (Rect.unit (s := S512x512) ![0, 0] S512x512.size inb_S512x512_S512x512_0_0).toLoadRect (h.unread x) = x := by
  rw [View.readAt_eq_ld, h.read_unread, View.ld_unit_zero hz2]
theorem readWholeCol (M : Memref sig .tc .vmem S512x1 .f32) (h : M.IsWhole) (x : Vec F S512x1 .f32) :
    View.readAt (Elt F) M.view (Rect.unit (s := S512x1) ![0, 0] S512x1.size inb_S512x1_S512x1_0_0).toLoadRect (h.unread x) = x := by
  rw [View.readAt_eq_ld, h.read_unread, View.ld_unit_zero hz2]

/-- After stores the last of which fills the whole buffer, the buffer reads that store's payload. -/
theorem readLastWhole {S : Shape} {e : EltTy} (v : View sig .tc .vmem S e) (f : v.ty.Contents (Elt F)) {off : Fin S.rank → Nat}
    (hz : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f ((⟨Rect.unit off S.size inb, w⟩ : View.Piece (Elt F) S e) :: L)
      (fun y => ⟨⟨Rect.unit off S.size inb, w⟩, List.mem_cons_self, View.mem_set_unit_zero hz inb y⟩)).trans
    (View.canon_cons_unit_zero hz inb w L)

/-- A load of the whole buffer after one store that filled it reads the store's payload. -/
theorem readCovWhole {S : Shape} {e : EltTy} (v : View sig .tc .vmem S e) {off : Fin S.rank → Nat}
    (hz : off = fun _ => 0) (inb : ∀ a, off a + S.size a ≤ S.size a) (w : S.Idx → Elt F e) :
    v.readCov [(⟨Rect.unit off S.size inb, w⟩ : View.Piece (Elt F) S e)] (Rect.unit off S.size inb).toLoadRect = w :=
  View.readCov_unit_zero v hz inb w

/-- A buffer held at contents that read `x` is owned at `x`. -/
theorem own_mk (c : Dev nD) {S : Shape} {e : EltTy} (M : Memref sig .tc .vmem S e) (f : M.view.ty.Contents (Elt F)) (x : S.Idx → Elt F e)
    (hf : M.view.read (Elt F) f = x) :
    (M.view.loc (c : Thread nD τ) ↦[M.view.set]{fullShare} f : sProp 𝕄)
      ⊢ iprop(∃ g, ⌜M.view.read (Elt F) g = x⌝ ∗ M.view.loc (c : Thread nD τ) ↦[M.view.set]{fullShare} g) := by
  iintro H; iexists f; isplitr
  · ipureintro; exact hf
  · iexact H

/-! ## The three cases -/

set_option maxHeartbeats 4000000 in
/-- A point that is neither at the first nor at the last column block: the accumulators grow by the tile's sums. -/
theorem run_mid (c : Dev nD) (i : grid0.Coords)
    (M0 : Memref sig .tc .vmem S512x128 .bf16) (h0 : M0.IsWhole) (M1 : Memref sig .tc .vmem S512x128 .bf16) (h1 : M1.IsWhole)
    (M2 : Memref sig .tc .vmem S512x512 .i32) (h2 : M2.IsWhole) (M3 : Memref sig .tc .vmem S512x512 .i32) (h3 : M3.IsWhole)
    (M4 : Memref sig .tc .vmem S512x1 .f32) (h4 : M4.IsWhole) (M5 : Memref sig .tc .vmem S512x1 .f32) (h5 : M5.IsWhole)
    (hc0 : ¬condFirst i) (hc1 : ¬condLast i)
    (x0 x1 : Vec F S512x128 .bf16) (x2 x3 : Vec F S512x512 .i32) (y4 y5 a0 a1 : Vec F S512x1 .f32) (E : Set ℕ) (K : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3
        ∗ owns (c : Thread nD τ) M4 fullShare y4 ∗ owns (c : Thread nD τ) M5 fullShare y5
        ∗ owns (c : Thread nD τ) sc0 fullShare a0 ∗ owns (c : Thread nD τ) sc1 fullShare a1
        ∗ (iprop(owns (c : Thread nD τ) M0 fullShare x0 ∗ owns (c : Thread nD τ) M1 fullShare x1 ∗ owns (c : Thread nD τ) M2 fullShare x2 ∗ owns (c : Thread nD τ) M3 fullShare x3
        ∗ owns (c : Thread nD τ) M4 fullShare y4 ∗ owns (c : Thread nD τ) M5 fullShare y5
        ∗ owns (c : Thread nD τ) sc0 fullShare (k0_pay7 i x0 x1 x2 a0) ∗ owns (c : Thread nD τ) sc1 fullShare (k0_pay1 (k0_pay4 x0 x1) (k0_pay6 i x3) a1)) -∗ K ⟨⟩))
      ⊢ wp frame (wpE (defs₀ (F := F)) Variants.none c none) E (cc0__kernel i M0 h0 M1 h1 M2 h2 M3 h3 M4 h4 M5 h5 sc0 (Memref.isWhole_whole _) sc1 (Memref.isWhole_whole _)) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := h0.eq_unread hf0; obtain rfl := h1.eq_unread hf1; obtain rfl := h2.eq_unread hf2; obtain rfl := h3.eq_unread hf3
  obtain rfl := (Memref.isWhole_whole cc0_scratch0).eq_unread hfs0; obtain rfl := (Memref.isWhole_whole cc0_scratch1).eq_unread hfs1
  have e0 := readWhole128 M0 h0 x0
  have e1 := readWhole128 M1 h1 x1
  have e2 := readWhole512 M2 h2 x2
  have e3 := readWhole512 M3 h3 x3
  have es0 := readWholeCol sc0 (Memref.isWhole_whole _) a0
  have es1 := readWholeCol sc1 (Memref.isWhole_whole _) a1
  sl_exec (disch := first | exact hc0 | exact hc1)
  sl_step
  iapply Hk
  isplitl [H0]; · iapply (own_mk c M0 _ _ (h0.read_unread _)); iexact H0
  isplitl [H1]; · iapply (own_mk c M1 _ _ (h1.read_unread _)); iexact H1
  isplitl [H2]; · iapply (own_mk c M2 _ _ (h2.read_unread _)); iexact H2
  isplitl [H3]; · iapply (own_mk c M3 _ _ (h3.read_unread _)); iexact H3
  isplitl [H4]; · iapply (own_mk c M4 _ _ hf4); iexact H4
  isplitl [H5]; · iapply (own_mk c M5 _ _ hf5); iexact H5
  isplitl [HS0]; · iapply (own_mk c sc0 _ _ (readLastWhole _ _ hz2 _ _ _)); iexact HS0
  iapply (own_mk c sc1 _ _ (readLastWhole _ _ hz2 _ _ _)); iexact HS1

set_option maxHeartbeats 4000000 in
/-- A point at the first column block: the accumulators are reset to zero, then grow by the tile's sums. -/
theorem run_first (c : Dev nD) (i : grid0.Coords)
    (M0 : Memref sig .tc .vmem S512x128 .bf16) (h0 : M0.IsWhole) (M1 : Memref sig .tc .vmem S512x128 .bf16) (h1 : M1.IsWhole)
    (M2 : Memref sig .tc .vmem S512x512 .i32) (h2 : M2.IsWhole) (M3 : Memref sig .tc .vmem S512x512 .i32) (h3 : M3.IsWhole)
    (M4 : Memref sig .tc .vmem S512x1 .f32) (h4 : M4.IsWhole) (M5 : Memref sig .tc .vmem S512x1 .f32) (h5 : M5.IsWhole)
    (hc0 : condFirst i) (hc1 : ¬condLast i)
    (x0 x1 : Vec F S512x128 .bf16) (x2 x3 : Vec F S512x512 .i32) (y4 y5 a0 a1 : Vec F S512x1 .f32) (E : Set ℕ) (K : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3
        ∗ owns (c : Thread nD τ) M4 fullShare y4 ∗ owns (c : Thread nD τ) M5 fullShare y5
        ∗ owns (c : Thread nD τ) sc0 fullShare a0 ∗ owns (c : Thread nD τ) sc1 fullShare a1
        ∗ (iprop(owns (c : Thread nD τ) M0 fullShare x0 ∗ owns (c : Thread nD τ) M1 fullShare x1 ∗ owns (c : Thread nD τ) M2 fullShare x2 ∗ owns (c : Thread nD τ) M3 fullShare x3
        ∗ owns (c : Thread nD τ) M4 fullShare y4 ∗ owns (c : Thread nD τ) M5 fullShare y5
        ∗ owns (c : Thread nD τ) sc0 fullShare (k0_pay7 i x0 x1 x2 k0_pay2) ∗ owns (c : Thread nD τ) sc1 fullShare (k0_pay1 (k0_pay4 x0 x1) (k0_pay6 i x3) k0_pay3)) -∗ K ⟨⟩))
      ⊢ wp frame (wpE (defs₀ (F := F)) Variants.none c none) E (cc0__kernel i M0 h0 M1 h1 M2 h2 M3 h3 M4 h4 M5 h5 sc0 (Memref.isWhole_whole _) sc1 (Memref.isWhole_whole _)) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := h0.eq_unread hf0; obtain rfl := h1.eq_unread hf1; obtain rfl := h2.eq_unread hf2; obtain rfl := h3.eq_unread hf3
  obtain rfl := (Memref.isWhole_whole cc0_scratch0).eq_unread hfs0; obtain rfl := (Memref.isWhole_whole cc0_scratch1).eq_unread hfs1
  have e0 := readWhole128 M0 h0 x0
  have e1 := readWhole128 M1 h1 x1
  have e2 := readWhole512 M2 h2 x2
  have e3 := readWhole512 M3 h3 x3
  have es0 := readWholeCol sc0 (Memref.isWhole_whole _) a0
  have es1 := readWholeCol sc1 (Memref.isWhole_whole _) a1
  have ec0 := readCovWhole sc0.view hz2 inb_S512x1_S512x1_0_0 (k0_pay2 (F := F))
  have ec1 := readCovWhole sc1.view hz2 inb_S512x1_S512x1_0_0 (k0_pay3 (F := F))
  sl_exec (disch := first | exact hc0 | exact hc1)
  sl_step
  iapply Hk
  isplitl [H0]; · iapply (own_mk c M0 _ _ (h0.read_unread _)); iexact H0
  isplitl [H1]; · iapply (own_mk c M1 _ _ (h1.read_unread _)); iexact H1
  isplitl [H2]; · iapply (own_mk c M2 _ _ (h2.read_unread _)); iexact H2
  isplitl [H3]; · iapply (own_mk c M3 _ _ (h3.read_unread _)); iexact H3
  isplitl [H4]; · iapply (own_mk c M4 _ _ hf4); iexact H4
  isplitl [H5]; · iapply (own_mk c M5 _ _ hf5); iexact H5
  isplitl [HS0]; · iapply (own_mk c sc0 _ _ ((readLastWhole _ _ hz2 _ _ _).trans (by first | rfl | rw [ec0]))); iexact HS0
  iapply (own_mk c sc1 _ _ ((readLastWhole _ _ hz2 _ _ _).trans (by first | rfl | rw [ec1]))); iexact HS1

set_option maxHeartbeats 4000000 in
/-- A point at the last column block: the accumulators grow by the tile's sums and are copied into the two outputs. -/
theorem run_last (c : Dev nD) (i : grid0.Coords)
    (M0 : Memref sig .tc .vmem S512x128 .bf16) (h0 : M0.IsWhole) (M1 : Memref sig .tc .vmem S512x128 .bf16) (h1 : M1.IsWhole)
    (M2 : Memref sig .tc .vmem S512x512 .i32) (h2 : M2.IsWhole) (M3 : Memref sig .tc .vmem S512x512 .i32) (h3 : M3.IsWhole)
    (M4 : Memref sig .tc .vmem S512x1 .f32) (h4 : M4.IsWhole) (M5 : Memref sig .tc .vmem S512x1 .f32) (h5 : M5.IsWhole)
    (hc0 : ¬condFirst i) (hc1 : condLast i)
    (x0 x1 : Vec F S512x128 .bf16) (x2 x3 : Vec F S512x512 .i32) (y4 y5 a0 a1 : Vec F S512x1 .f32) (E : Set ℕ) (K : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3
        ∗ owns (c : Thread nD τ) M4 fullShare y4 ∗ owns (c : Thread nD τ) M5 fullShare y5
        ∗ owns (c : Thread nD τ) sc0 fullShare a0 ∗ owns (c : Thread nD τ) sc1 fullShare a1
        ∗ (iprop(owns (c : Thread nD τ) M0 fullShare x0 ∗ owns (c : Thread nD τ) M1 fullShare x1 ∗ owns (c : Thread nD τ) M2 fullShare x2 ∗ owns (c : Thread nD τ) M3 fullShare x3
        ∗ owns (c : Thread nD τ) M4 fullShare (k0_pay7 i x0 x1 x2 a0) ∗ owns (c : Thread nD τ) M5 fullShare (k0_pay1 (k0_pay4 x0 x1) (k0_pay6 i x3) a1)
        ∗ owns (c : Thread nD τ) sc0 fullShare (k0_pay7 i x0 x1 x2 a0) ∗ owns (c : Thread nD τ) sc1 fullShare (k0_pay1 (k0_pay4 x0 x1) (k0_pay6 i x3) a1)) -∗ K ⟨⟩))
      ⊢ wp frame (wpE (defs₀ (F := F)) Variants.none c none) E (cc0__kernel i M0 h0 M1 h1 M2 h2 M3 h3 M4 h4 M5 h5 sc0 (Memref.isWhole_whole _) sc1 (Memref.isWhole_whole _)) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := h0.eq_unread hf0; obtain rfl := h1.eq_unread hf1; obtain rfl := h2.eq_unread hf2; obtain rfl := h3.eq_unread hf3
  obtain rfl := (Memref.isWhole_whole cc0_scratch0).eq_unread hfs0; obtain rfl := (Memref.isWhole_whole cc0_scratch1).eq_unread hfs1
  have e0 := readWhole128 M0 h0 x0
  have e1 := readWhole128 M1 h1 x1
  have e2 := readWhole512 M2 h2 x2
  have e3 := readWhole512 M3 h3 x3
  have es0 := readWholeCol sc0 (Memref.isWhole_whole _) a0
  have es1 := readWholeCol sc1 (Memref.isWhole_whole _) a1
  have ec0 := readCovWhole sc0.view hz2 inb_S512x1_S512x1_0_0 (k0_pay7 i x0 x1 x2 a0)
  have ec1 := readCovWhole sc1.view hz2 inb_S512x1_S512x1_0_0 (k0_pay1 (k0_pay4 x0 x1) (k0_pay6 i x3) a1)
  sl_exec (disch := first | exact hc0 | exact hc1)
  sl_step
  iapply Hk
  isplitl [H0]; · iapply (own_mk c M0 _ _ (h0.read_unread _)); iexact H0
  isplitl [H1]; · iapply (own_mk c M1 _ _ (h1.read_unread _)); iexact H1
  isplitl [H2]; · iapply (own_mk c M2 _ _ (h2.read_unread _)); iexact H2
  isplitl [H3]; · iapply (own_mk c M3 _ _ (h3.read_unread _)); iexact H3
  isplitl [H4]; · iapply (own_mk c M4 _ _ ((readLastWhole _ _ hz2 _ _ _).trans (by first | rfl | rw [ec0] | rw [e0, e1, e2, es0, ec0]))); iexact H4
  isplitl [H5]; · iapply (own_mk c M5 _ _ ((readLastWhole _ _ hz2 _ _ _).trans (by first | rfl | rw [ec1]))); iexact H5
  isplitl [HS0]; · iapply (own_mk c sc0 _ _ (readLastWhole _ _ hz2 _ _ _)); iexact HS0
  iapply (own_mk c sc1 _ _ (readLastWhole _ _ hz2 _ _ _)); iexact HS1

end Cert.Kernel.Run

end
-- ==== Proof.BOblig.lean ====
/-
  The pipeline's body obligation: at every grid point the body, handed each window's staging buffer at what the pipeline
  put there and the two accumulators at what the point before left, hands them back at the proof data's contents.

  The inputs' buffers hold their blocks at every point, fetched there or not (an unfetched window's block index has not
  moved). Which of the body's three cases applies is decided by the point's column block.
-/
import proofs.«127468_j49890340110909_1_alg».proof.Proof.BBody
import Idealize.ShloMosaic.Lib.Pipeline.FrameBody
import Idealize.ShloMosaic.Lib.Pipeline.Regions
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The inputs' buffers hold their blocks -/

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The accumulators, case by case -/

theorem accs_first (c : Dev nD) (t : Fin cfg0.N) (h0 : t.val % 16 = 0) :
    accs m c t.val t.isLt = accStep m c t (k0_pay2, k0_pay3) := by
  obtain ⟨n, hn⟩ := t
  cases n with
  | zero => rfl
  | succ n =>
    show accStep m c ⟨n + 1, hn⟩ (if (n + 1) % 16 = 0 then (k0_pay2, k0_pay3) else accs m c n (Nat.lt_of_succ_lt hn)) = _
    rw [if_pos h0]

theorem accs_next (c : Dev nD) (t : Fin cfg0.N) (h0 : ¬t.val % 16 = 0) :
    accs m c t.val t.isLt = accStep m c t (accs m c (t.val - 1) (Nat.lt_of_le_of_lt (Nat.sub_le _ _) t.isLt)) := by
  obtain ⟨n, hn⟩ := t
  cases n with
  | zero => exact absurd (Nat.zero_mod _) h0
  | succ n =>
    show accStep m c ⟨n + 1, hn⟩ (if (n + 1) % 16 = 0 then (k0_pay2, k0_pay3) else accs m c n (Nat.lt_of_succ_lt hn)) = _
    rw [if_neg h0]; rfl

/-! ## The obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]

set_option maxHeartbeats 4800000 in
/-- The body at any point: the inputs' buffers hold their blocks; the point's column block says which case it is in;
    the invariant hands the body the accumulators at what the point before left (at anything at the very first point)
    and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 256 := lt_of_lt_of_eq t.isLt (show cfg0.N = 256 from N_0)
  by_cases h0 : t.val % 16 = 0
  · have h1 : ¬t.val % 16 = 15 := by omega
    rw [Dat.leavesExact_idle (dats m 0 c) 4 t (idle4 t (fun h => h1 ((hcondLast t).mp h))) (noFlush4 t (fun h => h1 ((hcondLast t).mp h)))]
    rw [Dat.leavesExact_idle (dats m 0 c) 5 t (idle5 t (fun h => h1 ((hcondLast t).mp h))) (noFlush5 t (fun h => h1 ((hcondLast t).mp h)))]
    rw [accs_first m c t h0]
    unfold accStep; (try dsimp only)
    by_cases hz : t.val = 0
    · rw [PhiS_castSucc m c t, PhiS_zero m c _ _ hz]
      iintro ⟨⟨⟨%a0, HS0⟩, ⟨%a1, HS1⟩⟩, Ho, ⟨%d0, H0⟩, ⟨%d1, H1⟩, ⟨%d2, H2⟩, ⟨%d3, H3⟩, ⟨%d4, H4⟩, ⟨%d5, H5⟩⟩
      iapply (run_first c (grid0.coords t) (ms0 t) (hs0 t) (ms1 t) (hs1 t) (ms2 t) (hs2 t) (ms3 t) (hs3 t) (ms4 t) (hs4 t) (ms5 t) (hs5 t) ((hcondFirst t).mpr h0) (fun h => h1 ((hcondLast t).mp h))
        (iblk m c 0 t) (iblk m c 1 t) (iblk m c 2 t) (iblk m c 3 t) _ _ a0 a1 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩⟩
      iapply (run_first c (grid0.coords t) (ms0 t) (hs0 t) (ms1 t) (hs1 t) (ms2 t) (hs2 t) (ms3 t) (hs3 t) (ms4 t) (hs4 t) (ms5 t) (hs5 t) ((hcondFirst t).mpr h0) (fun h => h1 ((hcondLast t).mp h))
        (iblk m c 0 t) (iblk m c 1 t) (iblk m c 2 t) (iblk m c 3 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun e => h0 (by rw [e])
    rw [accs_next m c t h0]
    unfold accStep; (try dsimp only)
    rw [PhiS_castSucc m c t, PhiS_pos m c _ _ hz]
    by_cases h1 : t.val % 16 = 15
    · rw [show (dats m 0 c).leavesExact 4 t = owns (c : Thread nD τ) (ms4 t) fullShare ((dats m 0 c).after 4 t) from by
        unfold Dat.leavesExact; rw [live4 t ((hcondLast t).mpr h1)], after4]
      rw [show (dats m 0 c).leavesExact 5 t = owns (c : Thread nD τ) (ms5 t) fullShare ((dats m 0 c).after 5 t) from by
        unfold Dat.leavesExact; rw [live5 t ((hcondLast t).mpr h1)], after5]
      rw [accs_next m c t h0]
      unfold accStep; (try dsimp only)
      iintro ⟨⟨HS0, HS1⟩, Ho, ⟨%d0, H0⟩, ⟨%d1, H1⟩, ⟨%d2, H2⟩, ⟨%d3, H3⟩, ⟨%d4, H4⟩, ⟨%d5, H5⟩⟩
      iapply (run_last c (grid0.coords t) (ms0 t) (hs0 t) (ms1 t) (hs1 t) (ms2 t) (hs2 t) (ms3 t) (hs3 t) (ms4 t) (hs4 t) (ms5 t) (hs5 t) (fun h => h0 ((hcondFirst t).mp h)) ((hcondLast t).mpr h1)
        (iblk m c 0 t) (iblk m c 1 t) (iblk m c 2 t) (iblk m c 3 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dats m 0 c) 4 t (idle4 t (fun h => h1 ((hcondLast t).mp h))) (noFlush4 t (fun h => h1 ((hcondLast t).mp h)))]
      rw [Dat.leavesExact_idle (dats m 0 c) 5 t (idle5 t (fun h => h1 ((hcondLast t).mp h))) (noFlush5 t (fun h => h1 ((hcondLast t).mp h)))]
      iintro ⟨⟨HS0, HS1⟩, Ho, ⟨%d0, H0⟩, ⟨%d1, H1⟩, ⟨%d2, H2⟩, ⟨%d3, H3⟩, ⟨%d4, H4⟩, ⟨%d5, H5⟩⟩
      iapply (run_mid c (grid0.coords t) (ms0 t) (hs0 t) (ms1 t) (hs1 t) (ms2 t) (hs2 t) (ms3 t) (hs3 t) (ms4 t) (hs4 t) (ms5 t) (hs5 t) (fun h => h0 ((hcondFirst t).mp h)) (fun h => h1 ((hcondLast t).mp h))
        (iblk m c 0 t) (iblk m c 1 t) (iblk m c 2 t) (iblk m c 3 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Run

end
-- ==== Proof.BExit.lean ====
/-
  The TensorCore's buffers when the kernel region is left: the two result arrays at what the region wrote into them,
  every other buffer as the region found it.
-/
import proofs.«127468_j49890340110909_1_alg».proof.Proof.BData
import Idealize.ShloMosaic.Lib.Pipeline.FrameBody
import Idealize.ShloMosaic.Lib.Pipeline.Regions
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers at the region's exit, for any contents `X4`, `X5` of the two result arrays. -/
def Vx (c : Dev nD) (X4 : (Proc.devRef .tc main_v6_0 : DevRef τ sig).ty.Contents (Elt F))
    (X5 : (Proc.devRef .tc main_v6_1 : DevRef τ sig).ty.Contents (Elt F)) : Valuation τ sig (Elt F) :=
  Function.update (Function.update (Ve m c) (Proc.devRef .tc main_v6_0) X4) (Proc.devRef .tc main_v6_1) X5

theorem Vx_v6_1 (c : Dev nD) (X4) (X5) : Vx m c X4 X5 (Proc.devRef .tc main_v6_1) = X5 := by
  unfold Vx; exact Function.update_self ..

theorem Vx_v6_0 (c : Dev nD) (X4) (X5) : Vx m c X4 X5 (Proc.devRef .tc main_v6_0) = X4 := by
  unfold Vx
  rw [Function.update_of_ne (by decide)]
  exact Function.update_self ..

theorem Vx_of_ne (c : Dev nD) (X4) (X5) (b : DevRef τ sig) (h0 : b ≠ Proc.devRef .tc main_v6_0) (h1 : b ≠ Proc.devRef .tc main_v6_1) :
    Vx m c X4 X5 b = Ve m c b := by
  unfold Vx
  rw [Function.update_of_ne h1, Function.update_of_ne h0]

end Cert.Kernel.Run

end
-- ==== Proof.BLaunch.lean ====
/-
  The launch: @main as four segments — the row norms (an outlined function's five operations), the six operations that
  normalise the features, the kernel region, and the ten operations that turn the two columns of row sums into the loss.

  Between segments a core holds its unscoped buffers at a valuation. The region is entered from the valuation the
  first two stretches leave: the normalised features are handed to the two windows that stage them, one half of the
  buffer's share each, the two mask arrays and the two result arrays to their windows whole, and everything else
  bypasses the region. It is left with the two result arrays at what the write-backs made of them, the features'
  two halves joined again (an input array ends as it began), and the rest untouched; the last stretch runs from there.
-/
import proofs.«127468_j49890340110909_1_alg».proof.Proof.BExit
import Idealize.ShloMosaic.Lib.Pipeline.FrameBody
import Idealize.ShloMosaic.Lib.Pipeline.Regions
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (ucRefs)

-- The body obligation is proved apart; the launch takes it as given.
variable (hb : ∀ c : Dev nD, BodyObligation (dats (F := F) m 0 c) (defs₀ (F := F)) Variants.none () Set.univ)

abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers: the core's `owes`, at nothing. -/
abbrev R (c : Dev nD) : sProp 𝕄 := iprop(∃ W, owes (c : Thread nD τ) (0 : CellTallies nD τ sig Unit) W)

theorem fresh0 : ∀ op ∈ (hostOps0 : List (HloOp τ sig (Elt F))), op.fresh = ∅ := by
  intro _ h; (repeat (cases h with | head => rfl | tail _ h => ?_)); exact nomatch h
theorem fresh0_1 : ∀ op ∈ (hostOps0_1 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

/-- The row norms. -/
def seg0 : Pipeline.HostSeg (Name := ℕ) (U := UR sig nD τ) (pcfgs (F := F)) defs₀ 𝒱₀ L lv :=
  Pipeline.HostSeg.ofOps _ _ _ _ _ (ucRefs τ sig) hostOps0 (fun op h => Pipeline.sub_ucRefs op ((List.forall_iff_forall_mem.mp hostOps0_sub) op h))
    fresh0 (V₀ m) R
/-- The normalisation. -/
def seg1 : Pipeline.HostSeg (Name := ℕ) (U := UR sig nD τ) (pcfgs (F := F)) defs₀ 𝒱₀ L lv :=
  Pipeline.HostSeg.ofOps _ _ _ _ _ (ucRefs τ sig) hostOps0_1 (fun op h => Pipeline.sub_ucRefs op ((List.forall_iff_forall_mem.mp hostOps0_1_sub) op h))
    fresh0_1 (fun c => StableHlo.after hostOps0 (V₀ m c)) R

/-- The two result arrays after the region's last write-back. -/
abbrev F4 (c : Dev nD) : (Proc.devRef .tc main_v6_0 : DevRef τ sig).ty.Contents (Elt F) := (dats m 0 c).arrAt 4 cfg0.N
abbrev F5 (c : Dev nD) : (Proc.devRef .tc main_v6_1 : DevRef τ sig).ty.Contents (Elt F) := (dats m 0 c).arrAt 5 cfg0.N
/-- The buffers when the region is left. -/
abbrev Ve' (c : Dev nD) : Valuation τ sig (Elt F) := Vx m c (F4 m c) (F5 m c)

/-- From the columns of row sums to the loss. -/
def segT : Pipeline.HostSeg (Name := ℕ) (U := UR sig nD τ) (pcfgs (F := F)) defs₀ 𝒱₀ L lv :=
  Pipeline.HostSeg.ofOps _ _ _ _ _ (ucRefs τ sig) hostOps1 (fun op h => Pipeline.sub_ucRefs op ((List.forall_iff_forall_mem.mp hostOps1_sub) op h))
    fresh1 (Ve' m) R

/-! ## The windows' arrays, listed -/

omit [FloatOps F] in
/-- The five distinct buffers behind the six windows, each whole at the full share. -/
theorem arrBufs_list (c : Dev nD) (W : (b : Ref sig .tc) → Buf (Elt F) ((c : Thread nD τ).loc b)) :
    (Pipeline.arrBufs spec0 c W : sProp 𝕄)
      = iprop((((c : Thread nD τ).loc main_v5) ↦{fullShare} W main_v5) ∗ (((c : Thread nD τ).loc main_arg1) ↦{fullShare} W main_arg1)
          ∗ (((c : Thread nD τ).loc main_arg2) ↦{fullShare} W main_arg2) ∗ (((c : Thread nD τ).loc main_v6_0) ↦{fullShare} W main_v6_0)
          ∗ (((c : Thread nD τ).loc main_v6_1) ↦{fullShare} W main_v6_1)) := by
  unfold Pipeline.arrBufs
  exact bigSep_eq_bigSepL_of_eq [main_v5, main_arg1, main_arg2, main_v6_0, main_v6_1] (by decide) (by decide) _

/-- The six windows' arrays at contents G: the two windows on the normalised features hold one half of that buffer's
    share each, every other window its array whole. -/
theorem arrays_list (c : Dev nD) (G : (w : Fin cfg0.W) → Buf (Elt F) ((cfg0.win w).arr.view.loc (c : Thread nD τ))) :
    ((dats m 0 c).arrays G : sProp 𝕄)
      = iprop((((c : Thread nD τ).loc main_v5) ↦{fullShare.left} G 0) ∗ (((c : Thread nD τ).loc main_v5) ↦{fullShare.right} G 1)
          ∗ (((c : Thread nD τ).loc main_arg1) ↦{fullShare} G 2) ∗ (((c : Thread nD τ).loc main_arg2) ↦{fullShare} G 3)
          ∗ (((c : Thread nD τ).loc main_v6_0) ↦{fullShare} G 4) ∗ (((c : Thread nD τ).loc main_v6_1) ↦{fullShare} G 5)) := by
  have hs : ∀ (w : Fin cfg0.W) (q : PosShare TreeShare),
      (((cfg0.win w).arr.view.loc (c : Thread nD τ)) ↦[(cfg0.win w).arr.view.set]{q} G w : sProp 𝕄)
        = (((cfg0.win w).arr.view.loc (c : Thread nD τ)) ↦{q} G w) := fun w q => by
    have h : (cfg0.win w).arr.view.set = Finset.univ := (arr_whole0 w).set_eq_univ
    rw [h]
  unfold Pipeline.Dat.arrays
  rw [bigSep_W0]
  dsimp only
  rw [hs 0, hs 1, hs 2, hs 3, hs 4, hs 5]
  rfl

/-! ## The buffers at the region's exit, against those at its entry -/

/-- Off the two result arrays the exit valuation reads as the entry one. -/
theorem Ve'_of_ne (c : Dev nD) (b : Ref sig .tc) (h0 : b ≠ main_v6_0) (h1 : b ≠ main_v6_1) :
    Ve' m c (Proc.devRef .tc b) = V m c b :=
  Vx_of_ne m c _ _ _ (StableHlo.devRef_ne_of_ne h0) (StableHlo.devRef_ne_of_ne h1)

/-- The unscoped buffers that are no window's array are held at the same contents at both ends of the region. -/
theorem unscopedRest_exit (c : Dev nD) :
    (Pipeline.unscopedRest spec0 c (fun b => Ve' m c (Proc.devRef .tc b)) : sProp 𝕄) = Pipeline.unscopedRest spec0 c (V m c) := by
  unfold Pipeline.unscopedRest
  refine bigSep_congr fun b hb => ?_
  have hn := (Finset.mem_sdiff.mp hb).2
  have h0 : b ≠ main_v6_0 := fun h => hn (by rw [h]; decide)
  have h1 : b ≠ main_v6_1 := fun h => hn (by rw [h]; decide)
  dsimp only
  rw [Ve'_of_ne m c b h0 h1]

/-- At the two result arrays it reads what the region's last write-back left. -/
theorem Ve'_v6_0 (c : Dev nD) : Ve' m c (Proc.devRef .tc main_v6_0) = F4 m c := Vx_v6_0 m c _ _
theorem Ve'_v6_1 (c : Dev nD) : Ve' m c (Proc.devRef .tc main_v6_1) = F5 m c := Vx_v6_1 m c _ _

/-! ## The region -/

set_option backward.isDefEq.respectTransparency.types false in
/-- The kernel region: entered from the buffers the two host stretches leave, left with the two result arrays at what
    the write-backs made of them. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (hb c).loose
  hwaits := Pipeline.hwaits_of_owed_zero _ _ _ _ L lv 0 fun _ _ => rfl
  pre c := iprop(StableHlo.held (c : Thread nD τ) (ucRefs τ sig) (Ve m c) ∗ R c)
  post c := iprop(StableHlo.held (c : Thread nD τ) (ucRefs τ sig) (Ve' m c) ∗ R c)
  X c := iprop(emp)
  Y c := iprop(emp)
  Z c := Pipeline.unscopedRest spec0 c (V m c)
  hentry c := by
    rw [show StableHlo.held (c : Thread nD τ) (ucRefs τ sig) (Ve m c) = unscopedBufs c (V m c) from (Pipeline.unscopedBufs_held c (Ve m c)).symm,
      Pipeline.unscopedBufs_split₀ cfgs 0 winFacts₀0.arr_unscoped c (V m c), arrBufs_list, arrays_list]
    iintro ⟨⟨⟨⟨H5, H1, H2, H40, H41⟩, Hrest⟩, HO⟩, -, -⟩
    ihave H5' := (pointsTo_share (PosShare.mem_left_op_right fullShare)).1 $$ H5
    icases H5' with ⟨H5l, H5r⟩
    imodintro
    isplitl [H5l H5r H1 H2 H40 H41]
    · isplitl [H5l]; · iexact H5l
      isplitl [H5r]; · iexact H5r
      isplitl [H1]; · iexact H1
      isplitl [H2]; · iexact H2
      isplitl [H40]; · iexact H40
      iexact H41
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = PhiS m c 0 (Nat.zero_le _) from rfl, PhiS_zero m c 0 _ rfl, scopedRest0_eq]
    iintro ⟨-, -, ⟨%f0, H0⟩, ⟨%f1, H1⟩⟩
    isplitl [H0]
    · iexists f0; rw [owns_whole]; iexact H0
    · iexists f1; rw [owns_whole]; iexact H1
  hout c := by
    rw [Pipeline.ownSems0_none, scopedRest0_eq,
      show (dats m 0 c).Φ (Fin.last cfg0.N) = PhiS m c cfg0.N (Nat.le_refl _) from rfl, PhiS_pos m c cfg0.N _ (by decide)]
    iintro ⟨H0, H1⟩
    isplitr; · iempintro
    isplitr; · iempintro
    isplitl [H0]
    · iexists _; rw [← owns_whole]; iexact H0
    · iexists _; rw [← owns_whole]; iexact H1
  hexit c := by
    rw [show StableHlo.held (c : Thread nD τ) (ucRefs τ sig) (Ve' m c) = unscopedBufs c (fun b => Ve' m c (Proc.devRef .tc b)) from (Pipeline.unscopedBufs_held c (Ve' m c)).symm,
      Pipeline.unscopedBufs_split₀ cfgs 0 winFacts₀0.arr_unscoped c _, arrBufs_list, unscopedRest_exit, arrays_list,
      Ve'_of_ne m c main_v5 (by decide) (by decide), Ve'_of_ne m c main_arg1 (by decide) (by decide),
      Ve'_of_ne m c main_arg2 (by decide) (by decide), Ve'_v6_0, Ve'_v6_1]
    have e0 : ∀ t, (dats m 0 c).arrAt 0 t = V m c main_v5 := (dats m 0 c).arrAt_in 0 rfl
    have e1 : ∀ t, (dats m 0 c).arrAt 1 t = V m c main_v5 := (dats m 0 c).arrAt_in 1 rfl
    have e2 : ∀ t, (dats m 0 c).arrAt 2 t = V m c main_arg1 := (dats m 0 c).arrAt_in 2 rfl
    have e3 : ∀ t, (dats m 0 c).arrAt 3 t = V m c main_arg2 := (dats m 0 c).arrAt_in 3 rfl
    rw [e0, e1, e2, e3]
    iintro ⟨⟨H5l, H5r, H1, H2, H40, H41⟩, HO, -, Hrest⟩
    ihave H5 := (pointsTo_share (PosShare.mem_left_op_right fullShare)).2 $$ [H5l H5r]
    · isplitl [H5l] <;> iassumption
    imodintro
    isplitr [HO]
    · isplitr [Hrest]
      · isplitl [H5]; · iexact H5
        isplitl [H1]; · iexact H1
        isplitl [H2]; · iexact H2
        isplitl [H40]; · iexact H40
        iexact H41
      · iexact Hrest
    · unfold Pipeline.Dat.owesAt Pipeline.owesWithin
      icases HO with ⟨%W, -, HO⟩; iexists W; iexact HO

end Cert.Kernel.Run

end
-- ==== Proof.BRun.lean ====
/-
  The launch of @main: the four segments in order. From any memory with every counter at zero, every weakly fair
  execution on the cores terminates, and every final memory holds, at each unscoped buffer, what the last stretch of
  host operations makes of the buffers the kernel region leaves.

  The thread state between segments is the unscoped buffers held at a valuation beside what the core owes (nothing):
  each segment is entered from exactly what the one before it left, so the junctions are identities. The first state is
  made from what the launch deals each core; the last is read against the final state buffer by buffer.
-/
import proofs.«127468_j49890340110909_1_alg».proof.Proof.BLaunch
import Idealize.ShloMosaic.Lib.Pipeline.FrameBody
import Idealize.ShloMosaic.Lib.Pipeline.Regions
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (ucRefs)

-- The body obligation is proved apart; the launch takes it as given.
variable (hb : ∀ c : Dev nD, BodyObligation (dats (F := F) m 0 c) (defs₀ (F := F)) Variants.none () Set.univ)

/-- @main as the list of its four segments. -/
abbrev segs : List (Pipeline.Seg (pcfgs (F := F)) adm (dats m) () defs₀ 𝒱₀ L lv) :=
  [.host (seg0 m), .host (seg1 m), .region (reg0 m hb), .host (segT m)]

/-- @main on a core is the run of the four segments: its chain of items is the segments' fragments in order. -/
theorem main_run (c : Dev nD) : main (F := F) c = Pipeline.Seg.run (segs m hb) := by
  rw [main_chain, Pipeline.Seg.run_eq_chain]
  rfl

include hb

set_option backward.isDefEq.respectTransparency.types false in
/-- From any memory with zero counters: every weakly fair execution of @main terminates, and every final memory
    holds at each unscoped buffer what the last host operations make of the buffers the region leaves. -/
theorem run_main : θ_run defs (onTc (τ := τ) (main (F := F))) ⟨m, fun _ => 0, ρ⟩
    (fun r => ∀ c : Dev nD, ∀ b ∈ ucRefs τ sig,
      r.2.mem ((c : Thread nD τ).1, b) = StableHlo.after hostOps1 (Ve' m c) b) :=
  Pipeline.θ_run_regions_kit (pcfgs (F := F)) adm (dats m) () cellOf_inj EP defs₀ 𝒱₀ L lv m ρ main (segs m hb)
    (fun c Q => by rw [main_run m hb c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V₀ m c) ∗ R c))
    (Tₙ := fun c => StableHlo.held (c : Thread nD τ) (ucRefs τ sig) (StableHlo.after hostOps1 (Ve' m c)))
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := fun c s => ∀ b ∈ ucRefs τ sig, s.mem ((c : Thread nD τ).1, b) = StableHlo.after hostOps1 (Ve' m c) b)
    (hfin := fun c s' => by
      unfold StableHlo.held
      iintro ⟨Hh, HSI⟩
      imodintro
      iapply (pointsTo_read_all (ucRefs τ sig) (fun b => ((c : Thread nD τ).1, b)) (StableHlo.after hostOps1 (Ve' m c)) s')
      isplitl [Hh] <;> iassumption)
    (hQ := fun _ h => h)

end Cert.Kernel.Run

end
-- ==== Proof.BArgs.lean ====
/-
  The host operations leave the three arguments alone: none of the operations before the kernel region writes an
  argument's buffer, and none of the operations after it does.
-/
import proofs.«127468_j49890340110909_1_alg».proof.Proof.BExit
import Idealize.ShloMosaic.Lib.StableHlo.Run

set_option maxRecDepth 16384

noncomputable section

namespace Cert.Kernel.Run

open Cert.Kernel Cert.Kernel.Gen
open Idealize.ShloMosaic Idealize.ShloMosaic.TcCoe Idealize.ShloMosaic.Tactic
open Idealize.SL Idealize.SL.Sem

variable {F : FTy → Type} [FloatOps F]

variable (m : (ℓ : Loc nD τ sig) → Buf (Elt F) ℓ)

/-! ## The arguments reach the region as launched -/

/-- No host operation before the region writes the features. -/
theorem V_arg0 (c : Dev nD) : V m c main_arg0 = m ((c : Thread nD τ).loc main_arg0) := by
  dsimp only [V, Ve]
  simp only [hostOps0, hostOps0_1]
  after_results

/-- No host operation before the region writes the positive mask. -/
theorem V_arg1 (c : Dev nD) : V m c main_arg1 = m ((c : Thread nD τ).loc main_arg1) := by
  dsimp only [V, Ve]
  simp only [hostOps0, hostOps0_1]
  after_results

/-- No host operation before the region writes the negative mask. -/
theorem V_arg2 (c : Dev nD) : V m c main_arg2 = m ((c : Thread nD τ).loc main_arg2) := by
  dsimp only [V, Ve]
  simp only [hostOps0, hostOps0_1]
  after_results

/-! ## The host operations after the region leave the arguments alone -/

/-- The operations after the region do not write the features. -/
theorem tail_keeps_arg0 (W : Valuation τ sig (Elt F)) :
    StableHlo.after hostOps1 W (Proc.devRef .tc main_arg0) = W (Proc.devRef .tc main_arg0) := by
  simp only [hostOps1]
  after_results

/-- The operations after the region do not write the positive mask. -/
theorem tail_keeps_arg1 (W : Valuation τ sig (Elt F)) :
    StableHlo.after hostOps1 W (Proc.devRef .tc main_arg1) = W (Proc.devRef .tc main_arg1) := by
  simp only [hostOps1]
  after_results

/-- The operations after the region do not write the negative mask. -/
theorem tail_keeps_arg2 (W : Valuation τ sig (Elt F)) :
    StableHlo.after hostOps1 W (Proc.devRef .tc main_arg2) = W (Proc.devRef .tc main_arg2) := by
  simp only [hostOps1]
  after_results

/-- The three together: an argument's buffer is as it was. -/
theorem tail_keeps (W : Valuation τ sig (Elt F)) (b : Ref sig .tc) (hb : b = main_arg0 ∨ b = main_arg1 ∨ b = main_arg2) :
    StableHlo.after hostOps1 W (Proc.devRef .tc b) = W (Proc.devRef .tc b) := by
  rcases hb with rfl | rfl | rfl
  · exact tail_keeps_arg0 W
  · exact tail_keeps_arg1 W
  · exact tail_keeps_arg2 W

end Cert.Kernel.Run

end
-- ==== Proof.BFrame.lean ====
/-
  What the launch says of the result and of the arguments. Every final memory holds at each unscoped buffer what the
  last host operations make of the buffers the region leaves; read at the three arguments this is their launch
  contents (no host operation and no write-back touches an argument), and read at the result it is the host's last
  operations applied to the two columns of row sums.
-/
import proofs.«127468_j49890340110909_1_alg».proof.Proof.BRun
import proofs.«127468_j49890340110909_1_alg».proof.Proof.BArgs

set_option maxRecDepth 16384

noncomputable section

namespace Cert.Kernel.Run

open Cert.Kernel Cert.Kernel.Gen
open Idealize.ShloMosaic Idealize.ShloMosaic.TcCoe Idealize.ShloMosaic.Tactic
open Idealize.SL Idealize.SL.Sem
open Idealize.ShloMosaic.Pipeline (Dat Cfg Window BodyObligation cellOf ucRefs)

variable {F : FTy → Type} [FloatOps F]

variable (m : (ℓ : Loc nD τ sig) → Buf (Elt F) ℓ) (ρ : Dev nD → PrngReg)

variable (hb : ∀ c : Dev nD, BodyObligation (dats (F := F) m 0 c) (defs₀ (F := F)) Variants.none () Set.univ)

/-! ## The buffers read are unscoped -/

theorem mem_arg0 : (Proc.devRef .tc main_arg0 : DevRef τ sig) ∈ ucRefs τ sig := by decide
theorem mem_arg1 : (Proc.devRef .tc main_arg1 : DevRef τ sig) ∈ ucRefs τ sig := by decide
theorem mem_arg2 : (Proc.devRef .tc main_arg2 : DevRef τ sig) ∈ ucRefs τ sig := by decide
theorem mem_v14 : (Proc.devRef .tc main_v14 : DevRef τ sig) ∈ ucRefs τ sig := by decide

/-! ## An argument ends as launched -/

/-- The last host operations do not write the features, the region's exit leaves them as it found them, and the
    operations before the region do not write them. -/
theorem kept_arg0 (c : Dev nD) :
    StableHlo.after hostOps1 (Ve' m c) (Proc.devRef .tc main_arg0) = m ((c : Thread nD τ).loc main_arg0) :=
  (tail_keeps_arg0 (Ve' m c)).trans
    ((Vx_of_ne m c (F4 m c) (F5 m c) (Proc.devRef .tc main_arg0) (by decide) (by decide)).trans (V_arg0 m c))

theorem kept_arg1 (c : Dev nD) :
    StableHlo.after hostOps1 (Ve' m c) (Proc.devRef .tc main_arg1) = m ((c : Thread nD τ).loc main_arg1) :=
  (tail_keeps_arg1 (Ve' m c)).trans
    ((Vx_of_ne m c (F4 m c) (F5 m c) (Proc.devRef .tc main_arg1) (by decide) (by decide)).trans (V_arg1 m c))

theorem kept_arg2 (c : Dev nD) :
    StableHlo.after hostOps1 (Ve' m c) (Proc.devRef .tc main_arg2) = m ((c : Thread nD τ).loc main_arg2) :=
  (tail_keeps_arg2 (Ve' m c)).trans
    ((Vx_of_ne m c (F4 m c) (F5 m c) (Proc.devRef .tc main_arg2) (by decide) (by decide)).trans (V_arg2 m c))

include hb

/-- @main runs (terminates, no fault) and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h c _ mem_arg0).trans (kept_arg0 m c), (h c _ mem_arg1).trans (kept_arg1 m c), (h c _ mem_arg2).trans (kept_arg2 m c)⟩)
    (run_main m ρ hb)

/-- @main runs, its result ends at the last host operations applied to the two columns the region's write-backs
    leave, and its argument arrays end unchanged. -/
theorem result : θ_run defs (onTc (τ := τ) (main (F := F))) ⟨m, fun _ => 0, ρ⟩ (fun r => ∀ c : Dev nD,
      r.2.mem ((c.tc : Thread nD τ).loc main_v14)
        = StableHlo.after hostOps1 (Vx m c ((dats m 0 c).arrAt 4 cfg0.N) ((dats m 0 c).arrAt 5 cfg0.N))
            (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨h c _ mem_v14, (h c _ mem_arg0).trans (kept_arg0 m c), (h c _ mem_arg1).trans (kept_arg1 m c),
        (h c _ mem_arg2).trans (kept_arg2 m c)⟩)
    (run_main m ρ hb)

end Cert.Kernel.Run

end
-- ==== Proof.Spec.lean ====
/-
  The quantity both programs compute, index by index over the extended reals.

  For unit-normalised feature rows `fn` (8192 rows of 128 entries) and an integer mask `M` (8192 × 8192), the entry
  `(r, c)` of the similarity matrix is `exp (⟨fn r, fn c⟩ · (1/T))`, `1/T` the exact reciprocal of the temperature; it is
  weighted by the mask entry read as a signed integer and by `0` on the diagonal, `1` off it; a row's weighted
  similarities are summed. The same row sum is also the sum, over the 16 column blocks of width 512, of the
  block's partial sum, and so the value an accumulator started at `0` holds after adding the 16 partial sums in order:
  addition of extended reals is commutative and associative, so no finiteness is needed for the regrouping.
-/
import Idealize.ShloMosaic.PureOps.Ideal
import Idealize.ShloMosaic.PureOps.Ideal.Laws
import Idealize.ShloMosaic.Lib.ValueIdx

noncomputable section

open scoped BigOperators

namespace Cert.SupCon

open Idealize.ShloMosaic Idealize.ShloMosaic.ValueIdx

/-- Feature rows: 8192 rows of 128 extended reals. -/
abbrev Feat := (⟨2, ![8192, 128]⟩ : Shape).Idx → EReal
/-- An integer mask: 8192 × 8192 words. -/
abbrev MaskI := (⟨2, ![8192, 8192]⟩ : Shape).Idx → BitVec 32

/-- The reciprocal of the temperature: exactly `1 / (9395241/134217728)`. -/
def invTemp : EReal := ((134217728 / 9395241 : ℝ) : EReal)

/-- The inner product of rows `r` and `c`. -/
def gram (fn : Feat) (r c : Fin 8192) : EReal := ∑ d : Fin 128, fn (ix2 r d) * fn (ix2 c d)

/-- The similarity of rows `r` and `c`: the exponential of their inner product over the temperature. -/
def sim (fn : Feat) (r c : Fin 8192) : EReal := Ideal.exp (gram fn r c * invTemp)

/-- `0` on the diagonal, `1` off it. -/
def notSelf (r c : Fin 8192) : EReal := if r = c then 0 else 1

/-- The mask entry as a number, the diagonal removed. -/
def weight (M : MaskI) (r c : Fin 8192) : EReal := FloatOps.sitofp (F := Ideal) .f32 (M (ix2 r c)) * notSelf r c

/-- Row `r`'s weighted similarities, summed. -/
def rowSum (fn : Feat) (M : MaskI) (r : Fin 8192) : EReal := ∑ c : Fin 8192, sim fn r c * weight M r c

/-- Column `q` of column block `j`. -/
def col (j : Fin 16) (q : Fin 512) : Fin 8192 := ⟨512 * j.val + q.val, by omega⟩

/-- Row `p` of row block `i`. -/
def row (i : Fin 16) (p : Fin 512) : Fin 8192 := ⟨512 * i.val + p.val, by omega⟩

/-- The part of row `r`'s sum that column block `j` contributes. -/
def blockSum (fn : Feat) (M : MaskI) (r : Fin 8192) (j : Fin 16) : EReal :=
  ∑ q : Fin 512, sim fn r (col j q) * weight M r (col j q)

/-- A sum over the 8192 columns is the sum over the 16 blocks of the sums over a block's 512 columns. -/
theorem sum_cols (f : Fin 8192 → EReal) : ∑ c : Fin 8192, f c = ∑ j : Fin 16, ∑ q : Fin 512, f (col j q) := by
  rw [← Fintype.sum_prod_type' (f := fun j q => f (col j q))]
  refine (Fintype.sum_equiv (finProdFinEquiv (m := 16) (n := 512)) (fun p => f (col p.1 p.2)) f (fun p => ?_)).symm
  congr 1
  apply Fin.ext
  simp only [col, finProdFinEquiv, Equiv.coe_fn_mk]
  omega

theorem rowSum_eq_blocks (fn : Feat) (M : MaskI) (r : Fin 8192) : rowSum fn M r = ∑ j : Fin 16, blockSum fn M r j :=
  sum_cols _

/-- What the accumulator of row `r` holds after the first `n` column blocks. -/
def partialSum (fn : Feat) (M : MaskI) (r : Fin 8192) (n : Nat) : EReal :=
  ∑ j : Fin 16, if j.val < n then blockSum fn M r j else 0

theorem partialSum_zero (fn : Feat) (M : MaskI) (r : Fin 8192) : partialSum fn M r 0 = 0 := by
  simp [partialSum]

theorem partialSum_succ (fn : Feat) (M : MaskI) (r : Fin 8192) (j : Fin 16) :
    partialSum fn M r (j.val + 1) = partialSum fn M r j.val + blockSum fn M r j := by
  unfold partialSum
  rw [← Finset.sum_erase_add _ _ (Finset.mem_univ j), ← Finset.sum_erase_add (a := j) _ _ (Finset.mem_univ j)]
  simp only [Nat.lt_irrefl, if_false, add_zero, Nat.lt_succ_self, if_true]
  congr 1
  refine Finset.sum_congr rfl fun k hk => ?_
  have hne : k.val ≠ j.val := fun h => (Finset.ne_of_mem_erase hk) (Fin.ext h)
  by_cases h : k.val < j.val
  · rw [if_pos h, if_pos (by omega)]
  · rw [if_neg h, if_neg (by omega)]

theorem partialSum_all (fn : Feat) (M : MaskI) (r : Fin 8192) : partialSum fn M r 16 = rowSum fn M r := by
  rw [rowSum_eq_blocks]
  unfold partialSum
  exact Finset.sum_congr rfl fun j _ => by rw [if_pos j.isLt]

end Cert.SupCon

end
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.Payload.lean ====
/-
  The kernel body's pure values read at explicit coordinates: each named value of the body, applied at an index (p, q)
  of a 512 × 512 block or (p, u) of a 512 × 1 column, as arithmetic on the extended reals of the loaded blocks' entries.
-/
import proofs.«127468_j49890340110909_1_alg».proof.Proof.Gen.KernelIdeal.Skeleton
import proofs.«127468_j49890340110909_1_alg».proof.Proof.Spec
import proofs.«127468_j49890340110909_1_alg».proof.Proof.LibDotRowRow
import proofs.«127468_j49890340110909_1_alg».proof.Proof.LibColumnLayout
import Idealize.ShloMosaic.Lib.ValueIdx
import Idealize.ShloMosaic.Lib.Pipeline.Value
import Idealize.ShloMosaic.PureOps.Ideal.Laws
import Idealize.ShloMosaic.PureOps.IdealRules
import Idealize.ShloMosaic.Lib.IdealHost
import Idealize.ShloMosaic.Lib.Affine

noncomputable section

open scoped BigOperators

namespace Cert.KernelIdeal.Payload

open Idealize.ShloMosaic Idealize.SL.Sem Idealize.ShloMosaic.ValueIdx
open Cert.SupCon Cert.KernelIdeal Cert.KernelIdeal.Gen

/-- The temperature constant the body multiplies by is the exact reciprocal the specification names. -/
theorem inv_temperature :
    Named.named (F := Ideal) Cert.KernelIdeal.κ "inv_temperature" (φ := .f32) 0x41649249#32 = invTemp :=
  IdealRules.named_const.ideal_named_scalar _ _ _ _ rfl

/-- The first accumulator's starting value is zero at every index. -/
theorem pay2_apply (j : S512x1.Idx) : k0_pay2 (F := Ideal) j = 0 := by
  unfold k0_pay2
  rw [shapeCast_self]
  exact Ideal.ofBits_zero_f32

/-- The second accumulator's starting value is zero at every index. -/
theorem pay3_apply (j : S512x1.Idx) : k0_pay3 (F := Ideal) j = 0 := by
  unfold k0_pay3
  rw [shapeCast_self]
  exact Ideal.ofBits_zero_f32

/-- The similarity block at (p, q): the exponential of the inner product of row p of the left block and row q of the
    right block, times the reciprocal temperature. The product into a zero accumulator is the bare contraction sum, and
    the contraction of the second axes of both operands is the plain sum over the 128 feature coordinates. -/
theorem pay4_apply (v3 v5 : Vec Ideal S512x128 .bf16) (p q : Fin 512) :
    k0_pay4 (F := Ideal) v3 v5 (ix2 p q)
      = Ideal.exp ((∑ d : Fin 128, v3 (ix2 p d) * v5 (ix2 q d)) * invTemp) := by
  unfold k0_pay4
  rw [shapeCast_self, shapeCast_self]
  show Ideal.exp (FloatOps.matmul (F := Ideal) dot_S512x128_S512x128_S512x512_1_1_0_0_n_n none v3 v5
      (constant (F := Ideal) S512x512 .f32 0x00000000#32) (ix2 p q)
      * Named.named (F := Ideal) Cert.KernelIdeal.κ "inv_temperature" (φ := .f32) 0x41649249#32) = _
  rw [inv_temperature, Ideal.matmul_constant_zero_apply]
  exact congrArg (fun t => Ideal.exp (t * invTemp))
    (Cert.RowRowDot.sum_eq dot_S512x128_S512x128_S512x512_1_1_0_0_n_n rfl rfl rfl rfl rfl rfl rfl rfl v3 v5 p q)

/-- Equality of two 32-bit words that spell numbers below 2^32 is equality of the numbers. -/
theorem cmpi_eq_ofNat (a b : Nat) (ha : a < 2 ^ 32) (hb : b < 2 ^ 32) :
    IntOp.cmpi .eq (BitVec.ofNat 32 a) (BitVec.ofNat 32 b) = if a = b then 1#1 else 0#1 := by
  by_cases h : a = b
  · subst h
    rw [if_pos rfl]
    exact IntOp.cmpi_eq.mpr rfl
  · rw [if_neg h]
    refine eq_zero_of_ne_one fun hc => h ?_
    have := congrArg BitVec.toNat (IntOp.cmpi_eq.mp hc)
    rw [BitVec.toNat_ofNat, BitVec.toNat_ofNat, Nat.mod_eq_of_lt ha, Nat.mod_eq_of_lt hb] at this
    exact this

/-- A choice between two arrays on one bit, read at an index, is the choice between their entries. -/
theorem scalar_select_apply {ι α : Type} (c : BitVec 1) (a b : ι → α) (j : ι) :
    (Scalar.select c a b) j = Scalar.select c (a j) (b j) := by
  unfold Scalar.select
  split <;> rfl

/-- The diagonal mask at (p, q) of grid point i: zero exactly where the two block coordinates agree and p = q, one
    elsewhere. Each coordinate is below 2^32, so the comparison of the 32-bit words decides equality of the numbers. -/
theorem pay5_apply (i : grid0.Coords) (p q : Fin 512) :
    k0_pay5 (F := Ideal) i (ix2 p q) = if ((i 0).val = (i 1).val ∧ p = q) then (0 : EReal) else 1 := by
  unfold k0_pay5
  refine (scalar_select_apply _ _ _ _).trans ?_
  show Scalar.select (IntOp.cmpi .eq (BitVec.ofNat 32 (i 0).val) (BitVec.ofNat 32 (i 1).val))
      (Scalar.select (IntOp.cmpi .eq (iota .tc S512x512 32 [0] iota_S512x512_d0_w32 (ix2 p q))
          (iota .tc S512x512 32 [1] iota_S512x512_d1_w32 (ix2 p q)))
        (Ideal.ofBits .f32 0x00000000#32) (Ideal.ofBits .f32 0x3F800000#32))
      (Ideal.ofBits .f32 0x3F800000#32) = _
  have hi0 : (i 0).val < 2 ^ 32 := by have r : (i 0).val < 16 := (i 0).isLt; omega
  have hi1 : (i 1).val < 2 ^ 32 := by have r : (i 1).val < 16 := (i 1).isLt; omega
  have hp : p.val < 2 ^ 32 := by have := p.isLt; omega
  have hq : q.val < 2 ^ 32 := by have := q.isLt; omega
  rw [iota_single_apply, iota_single_apply, Ideal.ofBits_zero_f32, Ideal.ofBits_one_f32]
  show Scalar.select (IntOp.cmpi .eq (BitVec.ofNat 32 (i 0).val) (BitVec.ofNat 32 (i 1).val))
      (Scalar.select (IntOp.cmpi .eq (BitVec.ofNat 32 p.val) (BitVec.ofNat 32 q.val)) (0 : EReal) 1) 1 = _
  rw [cmpi_eq_ofNat _ _ hi0 hi1, cmpi_eq_ofNat _ _ hp hq]
  by_cases h01 : (i 0).val = (i 1).val
  · rw [if_pos h01, select_one]
    by_cases hpq : p = q
    · rw [if_pos (congrArg Fin.val hpq), select_one, if_pos ⟨h01, hpq⟩]
    · rw [if_neg (fun h => hpq (Fin.ext h)), select_zero, if_neg (fun h => hpq h.2)]
  · rw [if_neg h01, select_zero, if_neg (fun h => h01 h.1)]

/-- The second weight block at (p, q): the mask entry as a number times the diagonal mask. -/
theorem pay6_apply (i : grid0.Coords) (v23 : Vec Ideal S512x512 .i32) (p q : Fin 512) :
    k0_pay6 (F := Ideal) i v23 (ix2 p q)
      = FloatOps.sitofp (F := Ideal) .f32 (v23 (ix2 p q)) * k0_pay5 (F := Ideal) i (ix2 p q) := rfl

/-- The inserted index of the lane reduction is the pair (row, lane). -/
theorem lift_eq (p q : Fin 512) : reduces_S512x512_S512.lift (ix1 p) q = ix2 p q :=
  funext fun a => Fin.ext (by
    match a with
    | ⟨0, _⟩ => rfl
    | ⟨1, _⟩ => rfl)

/-- An accumulator column plus the lane sums of a block, read at a row. -/
theorem rowSum_apply (x : FVec Ideal S512x512 .f32) (acc : Vec Ideal S512x1 .f32) (p : Fin 512) (u : Fin 1) :
    shapeCast S512x1 (addf acc (shapeCast S512x1
      (multiReduction .add [1] S512 x 0x00000000#32 reduces_S512x512_S512 (.inl rfl) rfl) shapeCasts_S512_S512x1))
      shapeCasts_S512x1_S512x1 (ix2 p u) = acc (ix2 p u) + ∑ q : Fin 512, x (ix2 p q) := by
  rw [shapeCast_self]
  show acc (ix2 p u) + shapeCast S512x1
      (multiReduction .add [1] S512 x 0x00000000#32 reduces_S512x512_S512 (.inl rfl) rfl) shapeCasts_S512_S512x1 (ix2 p u) = _
  refine congrArg (acc (ix2 p u) + ·) ?_
  refine (Cert.ColumnLayout.shapeCast_a_a1_apply _ _ p u).trans ?_
  refine (Ideal.multiReduction_add_single x 0x00000000#32 reduces_S512x512_S512 (.inl rfl) rfl (ix1 p)).trans ?_
  exact Finset.sum_congr rfl fun q _ => congrArg x (lift_eq p q)

/-- The second accumulator's update at row p: its old value plus the sum over the 512 lanes of the products. -/
theorem pay1_apply (v10 v25 : FVec Ideal S512x512 .f32) (v34 : Vec Ideal S512x1 .f32) (p : Fin 512) (u : Fin 1) :
    k0_pay1 (F := Ideal) v10 v25 v34 (ix2 p u) = v34 (ix2 p u) + ∑ q : Fin 512, v10 (ix2 p q) * v25 (ix2 p q) :=
  rowSum_apply (mulf v10 v25) v34 p u

/-- The first accumulator's update at row p: its old value plus the sum over the 512 lanes of similarity times weight. -/
theorem pay7_apply (i : grid0.Coords) (v3 v5 : Vec Ideal S512x128 .bf16) (v20 : Vec Ideal S512x512 .i32)
    (v26 : Vec Ideal S512x1 .f32) (p : Fin 512) (u : Fin 1) :
    k0_pay7 (F := Ideal) i v3 v5 v20 v26 (ix2 p u)
      = v26 (ix2 p u) + ∑ q : Fin 512, k0_pay4 (F := Ideal) v3 v5 (ix2 p q)
          * (FloatOps.sitofp (F := Ideal) .f32 (v20 (ix2 p q)) * k0_pay5 (F := Ideal) i (ix2 p q)) :=
  rowSum_apply (mulf (k0_pay4 v3 v5) (mulf (sitofp .f32 v20) (k0_pay5 (F := Ideal) i))) v26 p u

end Cert.KernelIdeal.Payload

end
-- ==== Proof.KValue.lean ====
/-
  The kernel region's values as the specification's sums. Grid point t works on row block t / 16 and column block
  t % 16: the four input blocks read the arrays at rows and columns of those blocks; the diagonal mask of the point is
  the specification's; each accumulator after the body at position n holds, at row p, the partial sum over the first
  n % 16 + 1 column blocks of the row's masked similarities; and the output arrays, written back at the last column block
  of each row block, end holding every row's whole sum.
-/
import proofs.«127468_j49890340110909_1_alg».proof.Proof.KData
import proofs.«127468_j49890340110909_1_alg».proof.Proof.Spec
import proofs.«127468_j49890340110909_1_alg».proof.Proof.Payload

set_option maxRecDepth 16384

noncomputable section

open scoped BigOperators

namespace Cert.KernelIdeal.Value

open Cert.KernelIdeal Cert.KernelIdeal.Gen Cert.KernelIdeal.Run Cert.KernelIdeal.Payload Cert.SupCon
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The normalised features and the two masks as the kernel region finds them. -/
def fnK (c : Dev nD) : Feat := V m c main_v5
def P1 (c : Dev nD) : MaskI := V m c main_arg1
def P2 (c : Dev nD) : MaskI := V m c main_arg2

/-- Grid point t sits at row block t / 16 and column block t % 16. -/
def bi (t : Fin cfg0.N) : Fin 16 := ⟨t.val / 16, by have h : t.val < 256 := t.isLt; omega⟩
def bj (t : Fin cfg0.N) : Fin 16 := ⟨t.val % 16, Nat.mod_lt _ (by decide)⟩

/-- The windows' block indices and the grid coordinates, decided once over the 256 points. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = t.val % 16
    ∧ win0_3.index t (0 : Fin 2) = t.val / 16 ∧ win0_3.index t (1 : Fin 2) = t.val % 16
    ∧ win0_4.index t (0 : Fin 2) = t.val / 16 ∧ win0_4.index t (1 : Fin 2) = 0
    ∧ win0_5.index t (0 : Fin 2) = t.val / 16 ∧ win0_5.index t (1 : Fin 2) = 0
    ∧ (grid0.coords t 0).val = t.val / 16 ∧ (grid0.coords t 1).val = t.val % 16 :=
  (by decide +kernel : ∀ t : Fin grid0.N, _)

theorem read0 (A : S8192x128.Idx → EReal) (t : Fin cfg0.N) (p : Fin 512) (d : Fin 128) :
    ((cfg0.win 0).blk t).view.read (Elt Ideal) A (ix2 p d) = A (ix2 (row (bi t) p) d) := by
  obtain ⟨e0, e1, -⟩ := idx_facts t
  show A (((cfg0.win 0).blk t).view.emb (ix2 p d)) = _
  refine congrArg A (funext fun a => Fin.ext ?_)
  match a with
  | ⟨0, _⟩ => show win0_0.index t (0 : Fin 2) * 512 + 1 * p.val = 512 * (t.val / 16) + p.val; omega
  | ⟨1, _⟩ => show win0_0.index t (1 : Fin 2) * 128 + 1 * d.val = d.val; omega

theorem read1 (A : S8192x128.Idx → EReal) (t : Fin cfg0.N) (q : Fin 512) (d : Fin 128) :
    ((cfg0.win 1).blk t).view.read (Elt Ideal) A (ix2 q d) = A (ix2 (col (bj t) q) d) := by
  obtain ⟨-, -, e0, e1, -⟩ := idx_facts t
  show A (((cfg0.win 1).blk t).view.emb (ix2 q d)) = _
  refine congrArg A (funext fun a => Fin.ext ?_)
  match a with
  | ⟨0, _⟩ => show win0_1.index t (0 : Fin 2) * 512 + 1 * q.val = 512 * (t.val % 16) + q.val; omega
  | ⟨1, _⟩ => show win0_1.index t (1 : Fin 2) * 128 + 1 * d.val = d.val; omega

theorem read2 (A : S8192x8192.Idx → BitVec 32) (t : Fin cfg0.N) (p q : Fin 512) :
    ((cfg0.win 2).blk t).view.read (Elt Ideal) A (ix2 p q) = A (ix2 (row (bi t) p) (col (bj t) q)) := by
  obtain ⟨-, -, -, -, e0, e1, -⟩ := idx_facts t
  show A (((cfg0.win 2).blk t).view.emb (ix2 p q)) = _
  refine congrArg A (funext fun a => Fin.ext ?_)
  match a with
  | ⟨0, _⟩ => show win0_2.index t (0 : Fin 2) * 512 + 1 * p.val = 512 * (t.val / 16) + p.val; omega
  | ⟨1, _⟩ => show win0_2.index t (1 : Fin 2) * 512 + 1 * q.val = 512 * (t.val % 16) + q.val; omega

theorem read3 (A : S8192x8192.Idx → BitVec 32) (t : Fin cfg0.N) (p q : Fin 512) :
    ((cfg0.win 3).blk t).view.read (Elt Ideal) A (ix2 p q) = A (ix2 (row (bi t) p) (col (bj t) q)) := by
  obtain ⟨-, -, -, -, -, -, e0, e1, -⟩ := idx_facts t
  show A (((cfg0.win 3).blk t).view.emb (ix2 p q)) = _
  refine congrArg A (funext fun a => Fin.ext ?_)
  match a with
  | ⟨0, _⟩ => show win0_3.index t (0 : Fin 2) * 512 + 1 * p.val = 512 * (t.val / 16) + p.val; omega
  | ⟨1, _⟩ => show win0_3.index t (1 : Fin 2) * 512 + 1 * q.val = 512 * (t.val % 16) + q.val; omega

/-! ## Part 1: the four input blocks at a grid point, read off the arrays -/

theorem iblk0_apply (c : Dev nD) (t : Fin cfg0.N) (p : Fin 512) (d : Fin 128) :
    iblk m c 0 t (ix2 p d) = fnK m c (ix2 (row (bi t) p) d) := read0 (V m c main_v5) t p d

theorem iblk1_apply (c : Dev nD) (t : Fin cfg0.N) (q : Fin 512) (d : Fin 128) :
    iblk m c 1 t (ix2 q d) = fnK m c (ix2 (col (bj t) q) d) := read1 (V m c main_v5) t q d

theorem iblk2_apply (c : Dev nD) (t : Fin cfg0.N) (p q : Fin 512) :
    iblk m c 2 t (ix2 p q) = P1 m c (ix2 (row (bi t) p) (col (bj t) q)) := read2 (V m c main_arg1) t p q

theorem iblk3_apply (c : Dev nD) (t : Fin cfg0.N) (p q : Fin 512) :
    iblk m c 3 t (ix2 p q) = P2 m c (ix2 (row (bi t) p) (col (bj t) q)) := read3 (V m c main_arg2) t p q

/-! ## Part 2: the diagonal mask is the specification's -/

theorem pay5_notSelf (t : Fin cfg0.N) (p q : Fin 512) :
    k0_pay5 (F := Ideal) (grid0.coords t) (ix2 p q) = notSelf (row (bi t) p) (col (bj t) q) := by
  obtain ⟨-, -, -, -, -, -, -, -, -, -, -, -, g0, g1⟩ := idx_facts t
  rw [pay5_apply]
  unfold notSelf
  have ht : t.val < 256 := t.isLt
  refine if_congr ⟨?_, ?_⟩ rfl rfl
  · rintro ⟨h, rfl⟩
    apply Fin.ext
    show 512 * (t.val / 16) + p.val = 512 * (t.val % 16) + p.val
    omega
  · intro h
    have hv : 512 * (t.val / 16) + p.val = 512 * (t.val % 16) + q.val := congrArg Fin.val h
    have hp := p.isLt
    have hq := q.isLt
    exact ⟨by omega, Fin.ext (by omega)⟩

/-! ## Part 3: the accumulators are the specification's partial sums -/

/-- One entry of a tile's masked similarity, from blocks that read the arrays at row r and column c. -/
theorem tile_term (fn : Feat) (M : MaskI) (v3 v5 : Vec Ideal S512x128 .bf16) (x : BitVec 32) (y : EReal)
    (r c : Fin 8192) (p q : Fin 512)
    (h3 : ∀ d : Fin 128, v3 (ix2 p d) = fn (ix2 r d)) (h5 : ∀ d : Fin 128, v5 (ix2 q d) = fn (ix2 c d))
    (hx : x = M (ix2 r c)) (hy : y = notSelf r c) :
    k0_pay4 (F := Ideal) v3 v5 (ix2 p q) * (FloatOps.sitofp (F := Ideal) .f32 x * y) = sim fn r c * weight M r c := by
  rw [pay4_apply, hx, hy]
  unfold sim gram weight
  rw [Finset.sum_congr rfl fun d _ => by rw [h3 d, h5 d]]

/-- One grid point's step adds to the first accumulator the column block's part of the row sum. -/
theorem step1 (c : Dev nD) (t : Fin cfg0.N) (prev : Vec Ideal S512x1 .f32 × Vec Ideal S512x1 .f32)
    (p : Fin 512) (u : Fin 1) :
    (accStep m c t prev).1 (ix2 p u)
      = prev.1 (ix2 p u) + blockSum (fnK m c) (P1 m c) (row (bi t) p) (bj t) := by
  show k0_pay7 (F := Ideal) (grid0.coords t) (iblk m c 0 t) (iblk m c 1 t) (iblk m c 2 t) prev.1 (ix2 p u) = _
  refine (pay7_apply (grid0.coords t) (iblk m c 0 t) (iblk m c 1 t) (iblk m c 2 t) prev.1 p u).trans ?_
  unfold blockSum
  refine congrArg (prev.1 (ix2 p u) + ·) (Finset.sum_congr rfl fun q _ => ?_)
  exact tile_term (fnK m c) (P1 m c) (iblk m c 0 t) (iblk m c 1 t) _ _ (row (bi t) p) (col (bj t) q) p q
    (fun d => iblk0_apply m c t p d) (fun d => iblk1_apply m c t q d) (iblk2_apply m c t p q) (pay5_notSelf t p q)

/-- and to the second accumulator the same with the second mask. -/
theorem step2 (c : Dev nD) (t : Fin cfg0.N) (prev : Vec Ideal S512x1 .f32 × Vec Ideal S512x1 .f32)
    (p : Fin 512) (u : Fin 1) :
    (accStep m c t prev).2 (ix2 p u)
      = prev.2 (ix2 p u) + blockSum (fnK m c) (P2 m c) (row (bi t) p) (bj t) := by
  show k0_pay1 (F := Ideal) (k0_pay4 (iblk m c 0 t) (iblk m c 1 t)) (k0_pay6 (grid0.coords t) (iblk m c 3 t)) prev.2 (ix2 p u) = _
  refine (pay1_apply (k0_pay4 (iblk m c 0 t) (iblk m c 1 t)) (k0_pay6 (grid0.coords t) (iblk m c 3 t)) prev.2 p u).trans ?_
  unfold blockSum
  refine congrArg (prev.2 (ix2 p u) + ·) (Finset.sum_congr rfl fun q _ => ?_)
  refine (congrArg (k0_pay4 (F := Ideal) (iblk m c 0 t) (iblk m c 1 t) (ix2 p q) * ·)
    (pay6_apply (grid0.coords t) (iblk m c 3 t) p q)).trans ?_
  exact tile_term (fnK m c) (P2 m c) (iblk m c 0 t) (iblk m c 1 t) _ _ (row (bi t) p) (col (bj t) q) p q
    (fun d => iblk0_apply m c t p d) (fun d => iblk1_apply m c t q d) (iblk3_apply m c t p q) (pay5_notSelf t p q)

theorem step_partial1 (c : Dev nD) (t : Fin cfg0.N) (prev : Vec Ideal S512x1 .f32 × Vec Ideal S512x1 .f32)
    (p : Fin 512) (u : Fin 1)
    (h : prev.1 (ix2 p u) = partialSum (fnK m c) (P1 m c) (row (bi t) p) (t.val % 16)) :
    (accStep m c t prev).1 (ix2 p u) = partialSum (fnK m c) (P1 m c) (row (bi t) p) (t.val % 16 + 1) := by
  rw [step1, h]
  exact (partialSum_succ (fnK m c) (P1 m c) (row (bi t) p) (bj t)).symm

theorem step_partial2 (c : Dev nD) (t : Fin cfg0.N) (prev : Vec Ideal S512x1 .f32 × Vec Ideal S512x1 .f32)
    (p : Fin 512) (u : Fin 1)
    (h : prev.2 (ix2 p u) = partialSum (fnK m c) (P2 m c) (row (bi t) p) (t.val % 16)) :
    (accStep m c t prev).2 (ix2 p u) = partialSum (fnK m c) (P2 m c) (row (bi t) p) (t.val % 16 + 1) := by
  rw [step2, h]
  exact (partialSum_succ (fnK m c) (P2 m c) (row (bi t) p) (bj t)).symm

/-- After the body at position n, row p of each accumulator holds the sum of its row's first n % 16 + 1 column
    blocks: zero before the first block of a row block, one more block at every point. -/
theorem accs_eq (c : Dev nD) : ∀ (n : ℕ) (hn : n < cfg0.N) (p : Fin 512) (u : Fin 1),
    (accs m c n hn).1 (ix2 p u) = partialSum (fnK m c) (P1 m c) (row (bi ⟨n, hn⟩) p) (n % 16 + 1)
    ∧ (accs m c n hn).2 (ix2 p u) = partialSum (fnK m c) (P2 m c) (row (bi ⟨n, hn⟩) p) (n % 16 + 1) := by
  intro n
  induction n with
  | zero =>
    intro hn p u
    show (accStep m c ⟨0, hn⟩ (k0_pay2 (F := Ideal), k0_pay3 (F := Ideal))).1 (ix2 p u) = _ ∧ (accStep m c ⟨0, hn⟩ (k0_pay2 (F := Ideal), k0_pay3 (F := Ideal))).2 (ix2 p u) = _
    exact ⟨step_partial1 m c ⟨0, hn⟩ _ p u ((pay2_apply (ix2 p u)).trans (partialSum_zero _ _ _).symm),
      step_partial2 m c ⟨0, hn⟩ _ p u ((pay3_apply (ix2 p u)).trans (partialSum_zero _ _ _).symm)⟩
  | succ n ih =>
    intro hn p u
    have hn' : n + 1 < 256 := hn
    show (accStep m c ⟨n + 1, hn⟩ (if (n + 1) % 16 = 0 then (k0_pay2 (F := Ideal), k0_pay3 (F := Ideal)) else accs m c n (Nat.lt_of_succ_lt hn))).1 (ix2 p u) = _
      ∧ (accStep m c ⟨n + 1, hn⟩ (if (n + 1) % 16 = 0 then (k0_pay2 (F := Ideal), k0_pay3 (F := Ideal)) else accs m c n (Nat.lt_of_succ_lt hn))).2 (ix2 p u) = _
    by_cases h : (n + 1) % 16 = 0
    · rw [if_pos h]
      refine ⟨step_partial1 m c ⟨n + 1, hn⟩ _ p u ?_, step_partial2 m c ⟨n + 1, hn⟩ _ p u ?_⟩
      · show k0_pay2 (F := Ideal) (ix2 p u) = partialSum _ _ _ ((n + 1) % 16)
        rw [h, pay2_apply, partialSum_zero]
      · show k0_pay3 (F := Ideal) (ix2 p u) = partialSum _ _ _ ((n + 1) % 16)
        rw [h, pay3_apply, partialSum_zero]
    · rw [if_neg h]
      obtain ⟨ih1, ih2⟩ := ih (Nat.lt_of_succ_lt hn) p u
      have hb : bi ⟨n, Nat.lt_of_succ_lt hn⟩ = bi ⟨n + 1, hn⟩ := Fin.ext (by show n / 16 = (n + 1) / 16; omega)
      have hk : n % 16 + 1 = (n + 1) % 16 := by omega
      refine ⟨step_partial1 m c ⟨n + 1, hn⟩ _ p u ?_, step_partial2 m c ⟨n + 1, hn⟩ _ p u ?_⟩
      · show (accs m c n (Nat.lt_of_succ_lt hn)).1 (ix2 p u) = partialSum _ _ (row (bi ⟨n + 1, hn⟩) p) ((n + 1) % 16)
        rw [ih1, hb, hk]
      · show (accs m c n (Nat.lt_of_succ_lt hn)).2 (ix2 p u) = partialSum _ _ (row (bi ⟨n + 1, hn⟩) p) ((n + 1) % 16)
        rw [ih2, hb, hk]

/-! ## Part 4: the two output arrays after the region; the input arrays unchanged -/

/-- The whole first output array the write-backs piece together: row r holds row r's masked similarity sum. -/
def G4 (c : Dev nD) : S8192x1.Idx → EReal := fun idx => rowSum (fnK m c) (P1 m c) (idx 0)
/-- The second output array likewise, with the second mask. -/
def G5 (c : Dev nD) : S8192x1.Idx → EReal := fun idx => rowSum (fnK m c) (P2 m c) (idx 0)

theorem read4 (A : S8192x1.Idx → EReal) (t : Fin cfg0.N) (p : Fin 512) (u : Fin 1) :
    ((cfg0.win 4).blk t).view.read (Elt Ideal) A (ix2 p u) = A (ix2 (row (bi t) p) u) := by
  obtain ⟨-, -, -, -, -, -, -, -, e0, e1, -⟩ := idx_facts t
  show A (((cfg0.win 4).blk t).view.emb (ix2 p u)) = _
  refine congrArg A (funext fun a => Fin.ext ?_)
  match a with
  | ⟨0, _⟩ => show win0_4.index t (0 : Fin 2) * 512 + 1 * p.val = 512 * (t.val / 16) + p.val; omega
  | ⟨1, _⟩ => show win0_4.index t (1 : Fin 2) * 1 + 1 * u.val = u.val; omega

theorem read5 (A : S8192x1.Idx → EReal) (t : Fin cfg0.N) (p : Fin 512) (u : Fin 1) :
    ((cfg0.win 5).blk t).view.read (Elt Ideal) A (ix2 p u) = A (ix2 (row (bi t) p) u) := by
  obtain ⟨-, -, -, -, -, -, -, -, -, -, e0, e1, -⟩ := idx_facts t
  show A (((cfg0.win 5).blk t).view.emb (ix2 p u)) = _
  refine congrArg A (funext fun a => Fin.ext ?_)
  match a with
  | ⟨0, _⟩ => show win0_5.index t (0 : Fin 2) * 512 + 1 * p.val = 512 * (t.val / 16) + p.val; omega
  | ⟨1, _⟩ => show win0_5.index t (1 : Fin 2) * 1 + 1 * u.val = u.val; omega

/-- What a last-column-block point writes back is its block of the whole array of row sums: after sixteen column
    blocks the partial sum is the whole row sum. -/
theorem flushed4_eq (c : Dev nD) (t : Fin cfg0.N) (hf : (cfg0.win 4).flush t = true) :
    (dats m 0 c).flushed 4 t = ((cfg0.win 4).blk t).view.read (Elt Ideal) (G4 m c) := by
  have ht : t.val % 16 = 15 := (flush0_4 t).mp hf
  show (cfg0.win 4).cut (grid0.coords t) ((dats m 0 c).after 4 t) = _
  rw [after4]
  refine funext fun (j : S512x1.Idx) => ?_
  obtain ⟨p, u, rfl⟩ : ∃ (p : Fin 512) (u : Fin 1), j = ix2 p u := ⟨j 0, j 1, eq_ix2 j⟩
  show (accs m c t.val t.isLt).1 (ix2 p u) = _
  rw [(accs_eq m c t.val t.isLt p u).1, read4, ht]
  exact partialSum_all (fnK m c) (P1 m c) (row (bi t) p)

theorem flushed5_eq (c : Dev nD) (t : Fin cfg0.N) (hf : (cfg0.win 5).flush t = true) :
    (dats m 0 c).flushed 5 t = ((cfg0.win 5).blk t).view.read (Elt Ideal) (G5 m c) := by
  have ht : t.val % 16 = 15 := (flush0_5 t).mp hf
  show (cfg0.win 5).cut (grid0.coords t) ((dats m 0 c).after 5 t) = _
  rw [after5]
  refine funext fun (j : S512x1.Idx) => ?_
  obtain ⟨p, u, rfl⟩ : ∃ (p : Fin 512) (u : Fin 1), j = ix2 p u := ⟨j 0, j 1, eq_ix2 j⟩
  show (accs m c t.val t.isLt).2 (ix2 p u) = _
  rw [(accs_eq m c t.val t.isLt p u).2, read5, ht]
  exact partialSum_all (fnK m c) (P2 m c) (row (bi t) p)

/-- An index of an output array is in point t's block iff each coordinate is in the block's range on its axis. -/
theorem mem_blk4 (t : Fin cfg0.N) (i : S8192x1.Idx) :
    i ∈ ((cfg0.win 4).blk t).view.set ↔ ∀ a : Fin 2, win0_4.index t a * S512x1.size a ≤ (i a).val
      ∧ (i a).val < win0_4.index t a * S512x1.size a + S512x1.size a := by
  show i ∈ ((View.whole main_v6_0).slice (win0_4.rect t)).set ↔ _
  rw [View.set_slice_whole, Rect.mem_set_unit]
  exact Iff.rfl

theorem mem_blk5 (t : Fin cfg0.N) (i : S8192x1.Idx) :
    i ∈ ((cfg0.win 5).blk t).view.set ↔ ∀ a : Fin 2, win0_5.index t a * S512x1.size a ≤ (i a).val
      ∧ (i a).val < win0_5.index t a * S512x1.size a + S512x1.size a := by
  show i ∈ ((View.whole main_v6_1).slice (win0_5.rect t)).set ↔ _
  rw [View.set_slice_whole, Rect.mem_set_unit]
  exact Iff.rfl

/-- The last point of row r's row block. -/
def lastPt (i : S8192x1.Idx) : Fin cfg0.N :=
  ⟨16 * ((i 0).val / 512) + 15, by have h : (i 0).val < 8192 := (i 0).isLt; show _ < 256; omega⟩

/-- Every row of an output array is written back by the last point of its row block. -/
theorem cover4 (i : S8192x1.Idx) :
    ∃ t : Fin cfg0.N, (cfg0.win 4).flush t = true ∧ i ∈ ((cfg0.win 4).blk t).view.set := by
  have h0 : (i 0).val < 8192 := (i 0).isLt
  have h1 : (i 1).val < 1 := (i 1).isLt
  have hv : (lastPt i).val = 16 * ((i 0).val / 512) + 15 := rfl
  refine ⟨lastPt i, (flush0_4 _).mpr (by rw [hv]; omega), ?_⟩
  obtain ⟨-, -, -, -, -, -, -, -, e0, e1, -⟩ := idx_facts (lastPt i)
  rw [mem_blk4]
  intro a
  match a with
  | ⟨0, _⟩ => show win0_4.index (lastPt i) (0 : Fin 2) * 512 ≤ (i 0).val ∧ (i 0).val < win0_4.index (lastPt i) (0 : Fin 2) * 512 + 512; omega
  | ⟨1, _⟩ => show win0_4.index (lastPt i) (1 : Fin 2) * 1 ≤ (i 1).val ∧ (i 1).val < win0_4.index (lastPt i) (1 : Fin 2) * 1 + 1; omega

theorem cover5 (i : S8192x1.Idx) :
    ∃ t : Fin cfg0.N, (cfg0.win 5).flush t = true ∧ i ∈ ((cfg0.win 5).blk t).view.set := by
  have h0 : (i 0).val < 8192 := (i 0).isLt
  have h1 : (i 1).val < 1 := (i 1).isLt
  have hv : (lastPt i).val = 16 * ((i 0).val / 512) + 15 := rfl
  refine ⟨lastPt i, (flush0_5 _).mpr (by rw [hv]; omega), ?_⟩
  obtain ⟨-, -, -, -, -, -, -, -, -, -, e0, e1, -⟩ := idx_facts (lastPt i)
  rw [mem_blk5]
  intro a
  match a with
  | ⟨0, _⟩ => show win0_5.index (lastPt i) (0 : Fin 2) * 512 ≤ (i 0).val ∧ (i 0).val < win0_5.index (lastPt i) (0 : Fin 2) * 512 + 512; omega
  | ⟨1, _⟩ => show win0_5.index (lastPt i) (1 : Fin 2) * 1 ≤ (i 1).val ∧ (i 1).val < win0_5.index (lastPt i) (1 : Fin 2) * 1 + 1; omega

/-- THE OUTPUT ARRAYS after the region: every row holds its masked similarity sum. -/
theorem final4 (c : Dev nD) : (dats m 0 c).arrAt 4 cfg0.N = G4 m c :=
  (dats m 0 c).arrAt_eq_of_cover 4 (G4 m c) (fun t hf => flushed4_eq m c t hf) cover4

theorem final5 (c : Dev nD) : (dats m 0 c).arrAt 5 cfg0.N = G5 m c :=
  (dats m 0 c).arrAt_eq_of_cover 5 (G5 m c) (fun t hf => flushed5_eq m c t hf) cover5

theorem final4_apply (c : Dev nD) (r : Fin 8192) (u : Fin 1) :
    (dats m 0 c).arrAt 4 cfg0.N (ix2 r u) = rowSum (fnK m c) (P1 m c) r := by
  rw [final4]; rfl

theorem final5_apply (c : Dev nD) (r : Fin 8192) (u : Fin 1) :
    (dats m 0 c).arrAt 5 cfg0.N (ix2 r u) = rowSum (fnK m c) (P2 m c) r := by
  rw [final5]; rfl

/-- The input arrays are never written. -/
theorem kept0 (c : Dev nD) (n : ℕ) : (dats m 0 c).arrAt 0 n = V m c (Pipeline.arrRef spec0 0) :=
  ((dats m 0 c).arrAt_in 0 rfl n).trans (A_eq m c 0)
theorem kept1 (c : Dev nD) (n : ℕ) : (dats m 0 c).arrAt 1 n = V m c (Pipeline.arrRef spec0 1) :=
  ((dats m 0 c).arrAt_in 1 rfl n).trans (A_eq m c 1)
theorem kept2 (c : Dev nD) (n : ℕ) : (dats m 0 c).arrAt 2 n = V m c (Pipeline.arrRef spec0 2) :=
  ((dats m 0 c).arrAt_in 2 rfl n).trans (A_eq m c 2)
theorem kept3 (c : Dev nD) (n : ℕ) : (dats m 0 c).arrAt 3 n = V m c (Pipeline.arrRef spec0 3) :=
  ((dats m 0 c).arrAt_in 3 rfl n).trans (A_eq m c 3)

end Cert.KernelIdeal.Value

end
-- ==== Proof.RefValue.lean ====
/-
  The reference's result read index by index: the masked, exponentiated cosine similarities summed along each row.

  With fn the stage that holds the normalised feature rows, the reference's two row-sum stages are, at row r, the
  specification's row sums of fn against the positive and the negative mask: the start value 0 plus the sum over the
  columns k of exp (<fn r, fn k> / T) * (mask (r, k) read signed * (1 - [r = k])). The quotient by the temperature T is
  the product with the exact reciprocal of T; 1 - [r = k] is 0 on the diagonal and 1 off it. What follows the two row
  sums (add, divide, logarithm, the sum over the rows, the division by the row count, the negation) is a function of
  the two row-sum vectors alone, and it depends on each only through its 8192 entries.
-/
import proofs.«127468_j49890340110909_1_alg».proof.Proof.Gen.ReferenceIdeal.Read
import proofs.«127468_j49890340110909_1_alg».proof.Proof.Spec

noncomputable section

open scoped BigOperators

namespace Cert.ReferenceIdeal.RefValue

open Cert.ReferenceIdeal Cert.ReferenceIdeal.Gen Idealize.ShloMosaic Idealize.ShloMosaic.StableHlo
open Cert.SupCon Idealize.ShloMosaic.ValueIdx

/-! ## The float literals the reference spells, as the extended reals they denote -/

/-- The temperature literal denotes the real 9395241 / 2^27. -/
theorem ofBits_temp : Ideal.ofBits .f32 0x3D8F5C29#32 = ((9395241 / 134217728 : ℝ) : EReal) := by
  simp [Ideal.ofBits, Ideal.ieee, -EReal.coe_mul]; norm_num

/-- The literal 1.0 denotes 1. -/
theorem ofBits_one : Ideal.ofBits .f32 0x3F800000#32 = 1 := by
  simp [Ideal.ofBits, Ideal.ieee, -EReal.coe_mul]; norm_num

/-! ## The diagonal's removal -/

/-- Two row numbers below 8192 are the same 32-bit word only when they are the same number. -/
theorem ofNat_eq_iff (r k : Fin 8192) : BitVec.ofNat 32 r.val = BitVec.ofNat 32 k.val ↔ r = k := by
  constructor
  · intro h
    have h' := congrArg BitVec.toNat h
    rw [BitVec.toNat_ofNat, BitVec.toNat_ofNat] at h'
    apply Fin.ext
    have hr := r.isLt
    have hk := k.isLt
    omega
  · rintro rfl; rfl

/-- One minus the indicator of the diagonal, as a number: 0 on the diagonal, 1 off it. -/
theorem offDiag (r k : Fin 8192) : Read.val_main_v7 (F := Ideal) (ix2 r k) = notSelf r k := by
  rw [Read.val_main_v7_apply, Read.val_main_v6_apply, Read.val_main_cst_apply, Read.val_main_v5_apply,
    Read.val_main_v4_apply, Read.val_main_v3_apply, Read.val_main_v0_apply, Read.val_main_v2_apply,
    Read.val_main_c_apply, Read.val_main_v1_apply]
  show Ideal.ofBits .f32 0x3F800000#32
      - (((IntOp.cmpi .eq (IntOp.addi (BitVec.ofNat 32 r.val) 0#32) (BitVec.ofNat 32 k.val)).toNat : ℝ) : EReal)
    = notSelf r k
  have h0 : IntOp.addi (BitVec.ofNat 32 r.val) 0#32 = BitVec.ofNat 32 r.val := by
    unfold IntOp.addi; exact BitVec.add_zero _
  rw [h0, ofBits_one]
  unfold notSelf
  by_cases h : r = k
  · rw [if_pos h, IntOp.cmpi_eq.mpr ((ofNat_eq_iff r k).mpr h)]
    show ((1 : ℝ) : EReal) - (((1 : ℕ) : ℝ) : EReal) = ((0 : ℝ) : EReal)
    rw [Nat.cast_one, ← EReal.coe_sub, sub_self]
  · rw [if_neg h, eq_zero_of_ne_one (fun hc => h ((ofNat_eq_iff r k).mp (IntOp.cmpi_eq.mp hc)))]
    show (1 : EReal) - (((0 : ℕ) : ℝ) : EReal) = 1
    rw [Nat.cast_zero, EReal.coe_zero, sub_zero]

/-! ## The similarity and the weight at an index -/

/-- The reciprocal of the temperature, exactly. -/
theorem inv_temp : ((1 / (9395241 / 134217728 : ℝ) : ℝ) : EReal) = invTemp := by
  unfold invTemp
  congr 1
  norm_num

/-- The contraction of the feature axis of row r against row k is the inner product of the two rows. -/
theorem gram_eq (x0 : (⟨S8192x128, .f32⟩ : BufTy).Contents (Elt Ideal)) (r k : Fin 8192) :
    Read.val_main_v17 (F := Ideal) x0 (ix2 r k) = gram (Read.val_main_v16 (F := Ideal) x0) r k := by
  rw [Read.val_main_v17_apply]
  unfold gram
  refine Finset.sum_congr rfl fun d _ => ?_
  have el : Read.lidx_main_v17 (ix2 r k) d = ix2 r d := funext fun a => by
    match a with
    | ⟨0, _⟩ => rfl
    | ⟨1, _⟩ => rfl
  have er : Read.ridx_main_v17 (ix2 r k) d = ix2 k d := funext fun a => by
    match a with
    | ⟨0, _⟩ => rfl
    | ⟨1, _⟩ => rfl
  rw [el, er]

/-- The exponential of the inner product over the temperature: the quotient by the temperature is the product with
    its reciprocal. -/
theorem sim_eq (x0 : (⟨S8192x128, .f32⟩ : BufTy).Contents (Elt Ideal)) (r k : Fin 8192) :
    Read.val_main_v20 (F := Ideal) x0 (ix2 r k) = sim (Read.val_main_v16 (F := Ideal) x0) r k := by
  rw [Read.val_main_v20_apply, Read.val_main_v19_apply, Read.val_main_v18_apply, Read.val_main_cst_1_apply, gram_eq]
  show Ideal.exp (Ideal.div (gram (Read.val_main_v16 (F := Ideal) x0) r k) (Ideal.ofBits .f32 0x3D8F5C29#32)) = _
  rw [ofBits_temp, Ideal.div_coe (by norm_num), inv_temp]
  rfl

/-- The positive mask's entry as a number, the diagonal removed. -/
theorem weight_pos (x1 : (⟨S8192x8192, .i32⟩ : BufTy).Contents (Elt Ideal)) (r k : Fin 8192) :
    Read.val_main_v9 (F := Ideal) x1 (ix2 r k) = weight x1 r k := by
  rw [Read.val_main_v9_apply, Read.val_main_v8_apply, offDiag]
  rfl

/-- The negative mask's entry as a number, the diagonal removed. -/
theorem weight_neg (x2 : (⟨S8192x8192, .i32⟩ : BufTy).Contents (Elt Ideal)) (r k : Fin 8192) :
    Read.val_main_v11 (F := Ideal) x2 (ix2 r k) = weight x2 r k := by
  rw [Read.val_main_v11_apply, Read.val_main_v10_apply, offDiag]
  rfl

/-! ## The two row sums -/

/-- Row r of the positive sums is the specification's row sum against the positive mask. -/
theorem ref_pos (x0 : (⟨S8192x128, .f32⟩ : BufTy).Contents (Elt Ideal))
    (x1 : (⟨S8192x8192, .i32⟩ : BufTy).Contents (Elt Ideal)) (r : Fin 8192) :
    Read.val_main_v22 (F := Ideal) x0 x1 (ix1 r) = rowSum (Read.val_main_v16 (F := Ideal) x0) x1 r := by
  rw [Read.val_main_v22_apply, Read.val_main_cst_2_apply]
  show Ideal.ofBits .f32 0x00000000#32 + _ = _
  rw [Ideal.ofBits_zero_f32, zero_add]
  unfold rowSum
  refine Finset.sum_congr rfl fun k _ => ?_
  have ei : Read.idx_main_v22 (ix1 r) k = ix2 r k := funext fun a => by
    match a with
    | ⟨0, _⟩ => rfl
    | ⟨1, _⟩ => rfl
  rw [ei, Read.val_main_v21_apply, sim_eq, weight_pos]
  rfl

/-- Row r of the negative sums is the specification's row sum against the negative mask. -/
theorem ref_neg (x0 : (⟨S8192x128, .f32⟩ : BufTy).Contents (Elt Ideal))
    (x2 : (⟨S8192x8192, .i32⟩ : BufTy).Contents (Elt Ideal)) (r : Fin 8192) :
    Read.val_main_v24 (F := Ideal) x0 x2 (ix1 r) = rowSum (Read.val_main_v16 (F := Ideal) x0) x2 r := by
  rw [Read.val_main_v24_apply, Read.val_main_cst_3_apply]
  show Ideal.ofBits .f32 0x00000000#32 + _ = _
  rw [Ideal.ofBits_zero_f32, zero_add]
  unfold rowSum
  refine Finset.sum_congr rfl fun k _ => ?_
  have ei : Read.idx_main_v24 (ix1 r) k = ix2 r k := funext fun a => by
    match a with
    | ⟨0, _⟩ => rfl
    | ⟨1, _⟩ => rfl
  rw [ei, Read.val_main_v23_apply, sim_eq, weight_neg]
  rfl

/-! ## What follows the row sums -/

/-- The operations after the two row sums, as a function of the two row-sum vectors: pos / (pos + neg), its
    logarithm, the sum over the rows started at 0, the quotient by 8192, the negation. -/
def tail (pos neg : (⟨S8192, .f32⟩ : BufTy).Contents (Elt Ideal)) : (⟨S_, .f32⟩ : BufTy).Contents (Elt Ideal) :=
  Host.negf (F := Ideal) (φ := .f32)
    (Host.divf (F := Ideal) (φ := .f32)
      (Host.reduceAdd (F := Ideal) (φ := .f32)
        (Host.log (F := Ideal) (φ := .f32)
          (Host.divf (F := Ideal) (φ := .f32) pos (addf (F := Ideal) (φ := .f32) pos neg)))
        (Read.val_main_cst_4 (F := Ideal)) reducesTo_S8192_S_d0 h_S_)
      (Read.val_main_cst_5 (F := Ideal)))

/-- The reference's result is the tail of its two row-sum stages. -/
theorem result_eq (x0 : (⟨S8192x128, .f32⟩ : BufTy).Contents (Elt Ideal))
    (x1 x2 : (⟨S8192x8192, .i32⟩ : BufTy).Contents (Elt Ideal)) :
    Read.val_main_v30 (F := Ideal) x0 x1 x2
      = tail (Read.val_main_v22 (F := Ideal) x0 x1) (Read.val_main_v24 (F := Ideal) x0 x2) := rfl

/-- The tail depends on each row-sum vector only through its 8192 entries. -/
theorem rows_ext (pos pos' neg neg' : (⟨S8192, .f32⟩ : BufTy).Contents (Elt Ideal))
    (hp : ∀ r : Fin 8192, pos (ix1 r) = pos' (ix1 r)) (hn : ∀ r : Fin 8192, neg (ix1 r) = neg' (ix1 r)) :
    tail pos neg = tail pos' neg' := by
  have ep : pos = pos' := funext fun j => by rw [eq_ix1 j]; exact hp _
  have en : neg = neg' := funext fun j => by rw [eq_ix1 j]; exact hn _
  rw [ep, en]

end Cert.ReferenceIdeal.RefValue

end
-- ==== Proof.KHost.lean ====
/-
  The host operations around the one kernel region, read as values.

  Before the region the host normalises the feature rows: the norm of each row (the square root of the sum of the
  squares), its floor, the quotient, and a change of number format that is the identity on extended reals. These are,
  operation for operation, the stages by which the reference computes its normalised rows, so the array the region
  stages holds the reference's normalised rows. No host operation writes an argument. After the region the host
  reads the two column results as vectors and applies the same operations as the reference's own tail: add, divide,
  logarithm, the sum over the rows, the division by the row count, the negation.
-/
import proofs.«127468_j49890340110909_1_alg».proof.Proof.KData
import proofs.«127468_j49890340110909_1_alg».proof.Proof.KExit
import proofs.«127468_j49890340110909_1_alg».proof.Proof.KArgs
import proofs.«127468_j49890340110909_1_alg».proof.Proof.RefValue
import proofs.«127468_j49890340110909_1_alg».proof.Proof.LibColumnLayout
import Idealize.ShloMosaic.Lib.StableHlo.Run
import Idealize.ShloMosaic.Lib.ValueIdx
import Idealize.ShloMosaic.Lib.ValueLayout

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.Sem
open Idealize.ShloMosaic.ValueIdx

section AtIdeal

variable (m : (ℓ : Loc nD τ sig) → Buf (Elt Ideal) ℓ)

/-! ## The array the region stages holds the reference's normalised rows -/

/-- The host's operations before the region are, one for one, the reference's stages up to the normalised rows; the
    change of format that follows is the identity on extended reals. -/
theorem V_fn (c : Dev nD) :
    V m c main_v5 = Cert.ReferenceIdeal.Read.val_main_v16 (F := Ideal) (m ((c : Thread nD τ).loc main_arg0)) := by
  dsimp only [V, Ve]
  simp only [hostOps0, hostOps0_1]
  after_results
  rfl

/-! ## The host operations after the region are the reference's tail -/

/-- From any contents of the two result columns, the last buffer holds the reference's tail of the two columns read
    as vectors. -/
theorem tail_eq (c : Dev nD) (X4 : (Proc.devRef .tc main_v6_0 : DevRef τ sig).ty.Contents (Elt Ideal))
    (X5 : (Proc.devRef .tc main_v6_1 : DevRef τ sig).ty.Contents (Elt Ideal)) :
    StableHlo.after hostOps1 (Vx m c X4 X5) (Proc.devRef .tc main_v14)
      = Cert.ReferenceIdeal.RefValue.tail (fun i => X4 (ix2 (i 0) 0)) (fun i => X5 (ix2 (i 0) 0)) := by
  simp only [hostOps1]
  after_results
  rw [Vx_v6_0, Vx_v6_1]
  show Cert.ReferenceIdeal.RefValue.tail (fun i => shapeCast S8192 X4 shapeCasts_S8192x1_S8192 i)
      (fun i => shapeCast S8192 X5 shapeCasts_S8192x1_S8192 i) = _
  refine Cert.ReferenceIdeal.RefValue.rows_ext _ _ _ _ (fun r => ?_) (fun r => ?_)
  · exact Cert.ColumnLayout.shapeCast_a1_a_apply X4 shapeCasts_S8192x1_S8192 r
  · exact Cert.ColumnLayout.shapeCast_a1_a_apply X5 shapeCasts_S8192x1_S8192 r

end AtIdeal

end Cert.KernelIdeal.Run

end
-- ==== Proof.Bridge.lean ====
/-
  The kernel's result is the reference's. After the region the two output columns hold every row's masked similarity
  sum against the positive and the negative mask, of the normalised feature rows the region staged; those rows are the
  reference's normalised rows and the masks are the arguments, so the two columns are, row by row, the reference's two
  row-sum stages. What the host then applies to the two columns is the reference's own tail, which depends on each
  vector only through its entries: the two programs end with one value.
-/
import proofs.«127468_j49890340110909_1_alg».proof.Defs
import proofs.«127468_j49890340110909_1_alg».proof.Proof.Gen.KernelIdeal
import proofs.«127468_j49890340110909_1_alg».proof.Proof.Gen.ReferenceIdeal
import proofs.«127468_j49890340110909_1_alg».proof.Proof.Gen.Pre_finite_inputs
import proofs.«127468_j49890340110909_1_alg».proof.Proof.Gen.ReferenceIdeal.Run
import proofs.«127468_j49890340110909_1_alg».proof.Proof.Gen.ReferenceIdeal.Read
import proofs.«127468_j49890340110909_1_alg».proof.Proof.KValue
import proofs.«127468_j49890340110909_1_alg».proof.Proof.KHost
import proofs.«127468_j49890340110909_1_alg».proof.Proof.RefValue

set_option maxRecDepth 16384

noncomputable section

namespace Cert.Proof.Bridge

open Idealize.ShloMosaic Idealize.ShloMosaic.TcCoe Idealize.ShloMosaic.ValueIdx
open Idealize.SL Idealize.SL.Sem
open Cert.SupCon
open Cert.KernelIdeal Cert.KernelIdeal.Gen Cert.KernelIdeal.Run Cert.KernelIdeal.Value

variable (m : (ℓ : Loc Cert.KernelIdeal.nD Cert.KernelIdeal.τ Cert.KernelIdeal.sig) → Buf (Elt Ideal) ℓ)

/-- The staged feature rows are the reference's normalised rows of the first argument. -/
theorem fnK_eq (c : Dev Cert.KernelIdeal.nD) :
    fnK m c = Cert.ReferenceIdeal.Read.val_main_v16 (F := Ideal)
      (m ((c.tc : Thread Cert.KernelIdeal.nD Cert.KernelIdeal.τ).loc Cert.KernelIdeal.main_arg0)) :=
  V_fn m c

/-- The two masks the region reads are the second and third arguments. -/
theorem P1_eq (c : Dev Cert.KernelIdeal.nD) :
    P1 m c = m ((c.tc : Thread Cert.KernelIdeal.nD Cert.KernelIdeal.τ).loc Cert.KernelIdeal.main_arg1) :=
  V_arg1 m c

theorem P2_eq (c : Dev Cert.KernelIdeal.nD) :
    P2 m c = m ((c.tc : Thread Cert.KernelIdeal.nD Cert.KernelIdeal.τ).loc Cert.KernelIdeal.main_arg2) :=
  V_arg2 m c

/-- Row r of the first output column is row r of the reference's positive row sums. -/
theorem pos_row (c : Dev Cert.KernelIdeal.nD) (r : Fin 8192) :
    (dats m 0 c).arrAt 4 cfg0.N (ix2 r 0)
      = Cert.ReferenceIdeal.Read.val_main_v22 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) (ix1 r) := by
  rw [final4_apply, fnK_eq, P1_eq]
  exact (Cert.ReferenceIdeal.RefValue.ref_pos _ _ r).symm

/-- Row r of the second output column is row r of the reference's negative row sums. -/
theorem neg_row (c : Dev Cert.KernelIdeal.nD) (r : Fin 8192) :
    (dats m 0 c).arrAt 5 cfg0.N (ix2 r 0)
      = Cert.ReferenceIdeal.Read.val_main_v24 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2)) (ix1 r) := by
  rw [final5_apply, fnK_eq, P2_eq]
  exact (Cert.ReferenceIdeal.RefValue.ref_neg _ _ r).symm

/-- THE KERNEL'S RESULT, from the two output columns through the host's last operations, is the reference's result
    stage of the three arguments. -/
theorem kernel_result (c : Dev Cert.KernelIdeal.nD) :
    StableHlo.after hostOps1 (Vx m c ((dats m 0 c).arrAt 4 cfg0.N) ((dats m 0 c).arrAt 5 cfg0.N)) (Proc.devRef .tc main_v14)
      = Cert.ReferenceIdeal.Read.val_main_v30 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) :=
  (tail_eq m c _ _).trans
    ((Cert.ReferenceIdeal.RefValue.rows_ext _ _ _ _ (fun r => pos_row m c r) (fun r => neg_row m c r)).trans
      (Cert.ReferenceIdeal.RefValue.result_eq _ _ _).symm)

/-- THE ALGEBRAIC CLAIM, given the kernel's run: from memories that agree on the three arguments both programs run, the
    kernel's result is the reference's, and each leaves its arguments unchanged. The common value is the kernel's
    result term; the reference's run ends at its result stage of its own arguments, which are the kernel's. -/
theorem algebraic_of
    (hk : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal)) (onTc (τ := Cert.KernelIdeal.τ) (Cert.KernelIdeal.main (F := Ideal)))
        ⟨m, fun _ => 0, ρ⟩ (fun r => ∀ c : Dev Cert.KernelIdeal.nD,
          r.2.mem ((c.tc : Thread Cert.KernelIdeal.nD Cert.KernelIdeal.τ).loc Cert.KernelIdeal.main_v14)
            = StableHlo.after hostOps1 (Vx m c ((dats m 0 c).arrAt 4 cfg0.N) ((dats m 0 c).arrAt 5 cfg0.N))
                (Proc.devRef .tc main_v14)
          ∧ r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
              = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2)
              = m ((c.tc : Thread Cert.KernelIdeal.nD Cert.KernelIdeal.τ).loc Cert.KernelIdeal.main_arg2))) :
    Cert.algebraic_KernelIdeal_ReferenceIdeal := by
  intro m g m' g' _ hagree
  refine ⟨fun c => StableHlo.after hostOps1 (Vx m c ((dats m 0 c).arrAt 4 cfg0.N) ((dats m 0 c).arrAt 5 cfg0.N))
    (Proc.devRef .tc main_v14), hk m g, ?_⟩
  refine (θ_run (Cert.ReferenceIdeal.defs (F := Ideal)) _ _).mono (fun r h c => ⟨(h c).1.trans ?_, (h c).2⟩)
    (Cert.ReferenceIdeal.Value.run (F := Ideal) m' g')
  rw [Cert.ReferenceIdeal.Read.val_main_v30_eq, (hagree c).1, (hagree c).2.1, (hagree c).2.2]
  exact (kernel_result m c).symm

end Cert.Proof.Bridge

end
-- ==== Proof.lean ====
/-
  A supervised-contrastive loss over 8192 feature rows: each row is divided by its norm (floored at a small constant),
  the similarity of rows r and c is exp(⟨r, c⟩ / T), two integer masks weight the off-diagonal similarities, each row's
  weighted similarities are summed for either mask (pos, neg), and the loss is minus the mean over rows of
  log(pos / (pos + neg)).

  The kernel tiles the 8192 × 8192 similarity matrix into 16 × 16 tiles of 512 × 512 and accumulates, per row block, the
  tile's row sums over the 16 column blocks; the reference forms the whole matrix and sums each row at once. Over the
  extended reals the two agree index by index: a row sum is the sum over the column blocks of the blocks' partial
  sums (addition is commutative and associative, so the regrouping needs no finiteness), the in-tile diagonal of a
  diagonal tile is the matrix diagonal, and the kernel's factor 1/T — the exact reciprocal of the reference's
  temperature — makes its product the reference's quotient. The two programs share their first stretch (the row norms
  and the normalisation) and their last (from the two columns of row sums to the loss) operation for operation.

  The three frame claims: the reference is a line of host operations, run whole; either kernel program is the host
  stretches around one kernel region, whose body is run once per control case (reset at the first column block,
  accumulate, copy out at the last) and whose two feature windows each hold half of the one array they both stage.
-/
import proofs.«127468_j49890340110909_1_alg».proof.Defs
import proofs.«127468_j49890340110909_1_alg».proof.Proof.Gen.Kernel
import proofs.«127468_j49890340110909_1_alg».proof.Proof.Gen.KernelIdeal
import proofs.«127468_j49890340110909_1_alg».proof.Proof.Gen.ReferenceIdeal
import proofs.«127468_j49890340110909_1_alg».proof.Proof.Gen.Pre_finite_inputs
import proofs.«127468_j49890340110909_1_alg».proof.Proof.Gen.ReferenceIdeal.Run
import proofs.«127468_j49890340110909_1_alg».proof.Proof.KOblig
import proofs.«127468_j49890340110909_1_alg».proof.Proof.KFrame
import proofs.«127468_j49890340110909_1_alg».proof.Proof.BOblig
import proofs.«127468_j49890340110909_1_alg».proof.Proof.BFrame
import proofs.«127468_j49890340110909_1_alg».proof.Proof.Bridge
import Idealize.ShloMosaic.Adequacy
import Idealize.ShloMosaic.Init

noncomputable section

namespace Cert.Proof

open Idealize.ShloMosaic Idealize.SL.Sem

/-- The word-level kernel program runs to the end and leaves its arguments as they were. -/
theorem frame_k : Cert.frame_Kernel := fun m ρ _ =>
  Cert.Kernel.Run.frame (F := Bits) m ρ (Cert.Kernel.Run.body_obligation m)

/-- So does its idealization. -/
theorem frame_ki : Cert.frame_KernelIdeal := fun m ρ _ =>
  Cert.KernelIdeal.Run.frame (F := Ideal) m ρ (Cert.KernelIdeal.Run.body_obligation m)

/-- The reference is a line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's factor is named the exact reciprocal of the temperature. -/
theorem preserves : Cert.preserves_Kernel_KernelIdeal :=
  IdealRules.named_const.statement Cert.KernelIdeal.κ "inv_temperature" .f32 0x41649249#32 ((134217728 / 9395241 : ℝ) : EReal) rfl

/-- The idealized kernel and the idealized reference end with equal results. -/
theorem algebraic : Cert.algebraic_KernelIdeal_ReferenceIdeal :=
  Bridge.algebraic_of fun m ρ => Cert.KernelIdeal.Run.result (F := Ideal) m ρ (Cert.KernelIdeal.Run.body_obligation m)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
